-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S262144x64 : Shape := ⟨2, ![262144, 64]⟩
abbrev S128x128 : Shape := ⟨2, ![128, 128]⟩
abbrev S1x320 : Shape := ⟨2, ![1, 320]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S128x128 : S_.BroadcastsInDim S128x128 (![] : Fin 0 → Fin S128x128.rank)
  reducesTo_S128x128_S_d0_1 : S128x128.ReducesTo [0, 1] S_
  bcast_S_S1x320 : S_.BroadcastsInDim S1x320 (![] : Fin 0 → Fin S1x320.rank)
  reducesTo_S1x320_S_d0_1 : S1x320.ReducesTo [0, 1] S_

variable [Facts]

def fn_part1 {F : FTy → Type} [FloatOps F] (main_v13 : IVec S_ 1) (main_v16 : IVec S1x320 1) : IVec S_ 1 :=
  let main_c_5 : IVec S_ 1 := constantI S_ 1 1#1
  let main_v17 : IVec S_ 1 := (fun x v => Host.reduce IntOp.andi x v reducesTo_S1x320_S_d0_1 h_S_) main_v16 main_c_5
  let main_v18 : IVec S_ 1 := andi main_v13 main_v17
  main_v18

def fn {F : FTy → Type} [FloatOps F] (main_arg0 : FVec F S8192x128 .f32) (main_arg1 : IVec S2x262144 32) (main_arg2 : FVec F S262144x64 .f32) (main_arg3 : FVec F S128x128 .f32) (main_arg4 : FVec F S1x320 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S262144x64 .f32 := Host.absf main_arg2
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x320 .f32 := Host.absf main_arg4
  let main_cst_4 : FVec F S_ .f32 := constant S_ .f32 0x7F800000#32
  let main_v15 : FVec F S1x320 .f32 := broadcastInDim S1x320 ![] bcast_S_S1x320 main_cst_4
  let main_v16 : IVec S1x320 1 := cmpf .olt main_v14 main_v15
  fn_part1 (F := F) main_v13 main_v16
-- ==== Kernel.lean ====
abbrev S8192x128 : Shape := ⟨2, ![8192, 128]⟩
abbrev S2x262144 : Shape := ⟨2, ![2, 262144]⟩
abbrev S262144x64 : Shape := ⟨2, ![262144, 64]⟩
abbrev S128x128 : Shape := ⟨2, ![128, 128]⟩
abbrev S1x320 : Shape := ⟨2, ![1, 320]⟩
abbrev S1024x128 : Shape := ⟨2, ![1024, 128]⟩
abbrev S1x262144 : Shape := ⟨2, ![1, 262144]⟩
abbrev S262144 : Shape := ⟨1, ![262144]⟩
abbrev S1x128 : Shape := ⟨2, ![1, 128]⟩
abbrev S1x64 : Shape := ⟨2, ![1, 64]⟩
abbrev S128x1 : Shape := ⟨2, ![128, 1]⟩
abbrev S8192x1 : Shape := ⟨2, ![8192, 1]⟩
abbrev S8192 : Shape := ⟨1, ![8192]⟩
abbrev S64x1 : Shape := ⟨2, ![64, 1]⟩
abbrev S262144x1 : Shape := ⟨2, ![262144, 1]⟩
abbrev S_ : Shape := ⟨0, ![]⟩
abbrev S8192x8192 : Shape := ⟨2, ![8192, 8192]⟩
abbrev S262144x2 : Shape := ⟨2, ![262144, 2]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩

abbrev nBuf : Space → Nat
  | .hbm => 73
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S262144x64, .f32⟩
  | .hbm, ⟨3, _⟩ => ⟨S128x128, .f32⟩
  | .hbm, ⟨4, _⟩ => ⟨S1x320, .f32⟩
  | .hbm, ⟨5, _⟩ => ⟨S128x128, .f32⟩
  | .hbm, ⟨6, _⟩ => ⟨S8192x128, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S1x128, .f32⟩
  | .hbm, ⟨12, _⟩ => ⟨S1x128, .f32⟩
  | .hbm, ⟨13, _⟩ => ⟨S1x64, .f32⟩
  | .hbm, ⟨14, _⟩ => ⟨S128x1, .f32⟩
  | .hbm, ⟨15, _⟩ => ⟨S8192x1, .f32⟩
  | .hbm, ⟨16, _⟩ => ⟨S8192, .f32⟩
  | .hbm, ⟨17, _⟩ => ⟨S128x1, .f32⟩
  | .hbm, ⟨18, _⟩ => ⟨S8192x1, .f32⟩
  | .hbm, ⟨19, _⟩ => ⟨S8192, .f32⟩
  | .hbm, ⟨20, _⟩ => ⟨S64x1, .f32⟩
  | .hbm, ⟨21, _⟩ => ⟨S262144x1, .f32⟩
  | .hbm, ⟨22, _⟩ => ⟨S262144, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144, .f32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S262144, .f32⟩
  | .hbm, ⟨41, _⟩ => ⟨S262144, .f32⟩
  | .hbm, ⟨42, _⟩ => ⟨S262144, .f32⟩
  | .hbm, ⟨43, _⟩ => ⟨S_, .f32⟩
  | .hbm, ⟨44, _⟩ => ⟨S_, .f32⟩
  | .hbm, ⟨45, _⟩ => ⟨S262144, .f32⟩
  | .hbm, ⟨46, _⟩ => ⟨S262144, .i1⟩
  | .hbm, ⟨47, _⟩ => ⟨S_, .f32⟩
  | .hbm, ⟨48, _⟩ => ⟨S262144, .f32⟩
  | .hbm, ⟨49, _⟩ => ⟨S262144, .f32⟩
  | .hbm, ⟨50, _⟩ => ⟨S262144, .f32⟩
  | .hbm, ⟨51, _⟩ => ⟨S_, .bf16⟩
  | .hbm, ⟨52, _⟩ => ⟨S8192x8192, .bf16⟩
  | .hbm, ⟨53, _⟩ => ⟨S262144, .bf16⟩
  | .hbm, ⟨54, _⟩ => ⟨S_, .i32⟩
  | .hbm, ⟨55, _⟩ => ⟨S262144, .i32⟩
  | .hbm, ⟨56, _⟩ => ⟨S262144, .i1⟩
  | .hbm, ⟨57, _⟩ => ⟨S_, .i32⟩
  | .hbm, ⟨58, _⟩ => ⟨S262144, .i32⟩
  | .hbm, ⟨59, _⟩ => ⟨S262144, .i32⟩
  | .hbm, ⟨60, _⟩ => ⟨S262144, .i32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S_, .i32⟩
  | .hbm, ⟨65, _⟩ => ⟨S262144, .i32⟩
  | .hbm, ⟨66, _⟩ => ⟨S262144, .i32⟩
  | .hbm, ⟨67, _⟩ => ⟨S262144, .i32⟩
  | .hbm, ⟨68, _⟩ => ⟨S262144x1, .i32⟩
  | .hbm, ⟨69, _⟩ => ⟨S262144x1, .i32⟩
  | .hbm, ⟨70, _⟩ => ⟨S262144x2, .i32⟩
  | .hbm, ⟨71, _⟩ => ⟨S8192x8192, .bf16⟩
  | .hbm, ⟨72, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | .local _ .vmem, ⟨5, _⟩ => ⟨S256x8192, .bf16⟩
  | .local _ .vmem, ⟨6, _⟩ => ⟨S256x8192, .bf16⟩
  | .local _ .vmem, ⟨7, _⟩ => ⟨S8192x128, .f32⟩
  | .local _ .vmem, ⟨8, _⟩ => ⟨S256x128, .f32⟩
  | .local _ .vmem, ⟨9, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  slices_S1x320_S1x128_0_0 : S1x320.Slices ![0, 0] S1x128
  slices_S1x320_S1x128_0_128 : S1x320.Slices ![0, 128] S1x128
  slices_S1x320_S1x64_0_256 : S1x320.Slices ![0, 256] S1x64
  transposes_S1x128_S128x1_1_0 : S1x128.Transposes [1, 0] S128x1
  shapeCasts_S8192x1_S8192 : S8192x1.ShapeCasts S8192
  transposes_S1x64_S64x1_1_0 : S1x64.Transposes [1, 0] S64x1
  shapeCasts_S262144x1_S262144 : S262144x1.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S_S8192x8192 : S_.BroadcastsInDim S8192x8192 (![] : Fin 0 → Fin S8192x8192.rank)
  concatenates_S262144x1_S262144x1_S262144x2_d1 : Shape.Concatenates [S262144x1, S262144x1] S262144x2 1
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  reduces_S256x8192_S256 : S256x8192.Reduces [1] S256
  shapeCasts_S256_S256x1 : S256.ShapeCasts S256x1
  broadcasts_S256x1_S256x8192 : S256x1.Broadcasts S256x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  broadcasts_S256x1_S256x128 : S256x1.Broadcasts S256x128
  inb_S256x128_S256x128_0_0 : ∀ a, (![0, 0] : Fin 2 → Nat) a + S256x128.size a ≤ S256x128.size a
  h_S256x128 : 0 < S256x128.numel
  dot_S1024x128_S128x128_S1024x128_1_0_0_1_n_n_wf : DotDims.WF S1024x128 S128x128 S1024x128 [1] [0] [0] [1] [] []
  dot_S8192x128_S128x1_S8192x1_1_0_0_1_n_n_wf : DotDims.WF S8192x128 S128x1 S8192x1 [1] [0] [0] [1] [] []
  dot_S262144x64_S64x1_S262144x1_1_0_0_1_n_n_wf : DotDims.WF S262144x64 S64x1 S262144x1 [1] [0] [0] [1] [] []
  gather_S8192_S262144x1_S262144_n_0_n_n_0_1_1_wf : GatherDims.WF S8192 S262144x1 S262144 [] [0] [] [0] [] 1 ![1]
  scatter_S8192x8192_S262144x2_S262144_n_01_01_1_wf : ScatterDims.WF S8192x8192 S262144x2 S262144 [] [0, 1] [0, 1] 1
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .bf16 = 32 ∨ (Rect.block (s := S8192x8192) S256x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S8192x128.size a
  hwx1_2 : ∀ i : grid1.Coords, EltTy.bits .f32 = 32 ∨ (Rect.block (s := S8192x128) S256x128.size (cc1_transform_2 i) (hinb1_2 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S2x262144 : Shape := ⟨2, ![2, 262144]⟩
abbrev S262144x64 : Shape := ⟨2, ![262144, 64]⟩
abbrev S128x128 : Shape := ⟨2, ![128, 128]⟩
abbrev S1x320 : Shape := ⟨2, ![1, 320]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x128 : Shape := ⟨2, ![262144, 128]⟩
abbrev S262144x320 : Shape := ⟨2, ![262144, 320]⟩
abbrev S320x1 : Shape := ⟨2, ![320, 1]⟩
abbrev S8192x8192 : Shape := ⟨2, ![8192, 8192]⟩
abbrev S262144x2 : Shape := ⟨2, ![262144, 2]⟩
abbrev S8192 : Shape := ⟨1, ![8192]⟩
abbrev S8192x1 : Shape := ⟨2, ![8192, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S262144x64, .f32⟩
  | .hbm, ⟨3, _⟩ => ⟨S128x128, .f32⟩
  | .hbm, ⟨4, _⟩ => ⟨S1x320, .f32⟩
  | .hbm, ⟨5, _⟩ => ⟨S128x128, .f32⟩
  | .hbm, ⟨6, _⟩ => ⟨S8192x128, .f32⟩
  | .hbm, ⟨7, _⟩ => ⟨S1x262144, .i32⟩
  | .hbm, ⟨8, _⟩ => ⟨S262144, .i32⟩
  | .hbm, ⟨9, _⟩ => ⟨S1x262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x128, .f32⟩
  | .hbm, ⟨20, _⟩ => ⟨S_, .i32⟩
  | .hbm, ⟨21, _⟩ => ⟨S262144, .i32⟩
  | .hbm, ⟨22, _⟩ => ⟨S262144, .i1⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S262144, .i32⟩
  | .hbm, ⟨27, _⟩ => ⟨S262144x1, .i32⟩
  | .hbm, ⟨28, _⟩ => ⟨S262144x128, .f32⟩
  | .hbm, ⟨29, _⟩ => ⟨S262144x320, .f32⟩
  | .hbm, ⟨30, _⟩ => ⟨S320x1, .f32⟩
  | .hbm, ⟨31, _⟩ => ⟨S262144x1, .f32⟩
  | .hbm, ⟨32, _⟩ => ⟨S_, .f32⟩
  | .hbm, ⟨33, _⟩ => ⟨S_, .f32⟩
  | .hbm, ⟨34, _⟩ => ⟨S262144x1, .f32⟩
  | .hbm, ⟨35, _⟩ => ⟨S262144x1, .i1⟩
  | .hbm, ⟨36, _⟩ => ⟨S_, .f32⟩
  | .hbm, ⟨37, _⟩ => ⟨S262144x1, .f32⟩
  | .hbm, ⟨38, _⟩ => ⟨S262144x1, .f32⟩
  | .hbm, ⟨39, _⟩ => ⟨S262144x1, .f32⟩
  | .hbm, ⟨40, _⟩ => ⟨S262144, .f32⟩
  | .hbm, ⟨41, _⟩ => ⟨S_, .f32⟩
  | .hbm, ⟨42, _⟩ => ⟨S8192x8192, .f32⟩
  | .hbm, ⟨43, _⟩ => ⟨S_, .i32⟩
  | .hbm, ⟨44, _⟩ => ⟨S262144, .i32⟩
  | .hbm, ⟨45, _⟩ => ⟨S262144, .i1⟩
  | .hbm, ⟨46, _⟩ => ⟨S_, .i32⟩
  | .hbm, ⟨47, _⟩ => ⟨S262144, .i32⟩
  | .hbm, ⟨48, _⟩ => ⟨S262144, .i32⟩
  | .hbm, ⟨49, _⟩ => ⟨S262144, .i32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S262144x1, .i32⟩
  | .hbm, ⟨59, _⟩ => ⟨S262144x2, .i32⟩
  | .hbm, ⟨60, _⟩ => ⟨S8192x8192, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192x1, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x8192, .f32⟩
  | .hbm, ⟨74, _⟩ => ⟨S8192x8192, .f32⟩
  | .hbm, ⟨75, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  transposes_S128x128_S128x128_1_0 : S128x128.Transposes [1, 0] S128x128
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x128_S262144x128_S262144x64_S262144x320_d1 : Shape.Concatenates [S262144x128, S262144x128, S262144x64] S262144x320 1
  transposes_S1x320_S320x1_1_0 : S1x320.Transposes [1, 0] S320x1
  bcast_S_S262144x1 : S_.BroadcastsInDim S262144x1 (![] : Fin 0 → Fin S262144x1.rank)
  shapeCasts_S262144x1_S262144 : S262144x1.ShapeCasts S262144
  bcast_S_S8192x8192 : S_.BroadcastsInDim S8192x8192 (![] : Fin 0 → Fin S8192x8192.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x128_S8192x128_1_0_0_1_n_n_wf : DotDims.WF S8192x128 S128x128 S8192x128 [1] [0] [0] [1] [] []
  gather_S8192x128_S262144x1_S262144x128_1_0_n_n_0_1_1128_wf : GatherDims.WF S8192x128 S262144x1 S262144x128 [1] [0] [] [0] [] 1 ![1, 128]
  dot_S262144x320_S320x1_S262144x1_1_0_0_1_n_n_wf : DotDims.WF S262144x320 S320x1 S262144x1 [1] [0] [0] [1] [] []
  scatter_S8192x8192_S262144x2_S262144_n_01_01_1_wf : ScatterDims.WF S8192x8192 S262144x2 S262144 [] [0, 1] [0, 1] 1
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def dot_S262144x320_S320x1_S262144x1_1_0_0_1_n_n : DotDims S262144x320 S320x1 S262144x1 where
  lhsContracting := [1]
  rhsContracting := [0]
  lhsNonContracting := [0]
  rhsNonContracting := [1]
  lhsBatch := []
  rhsBatch := []
  wf := dot_S262144x320_S320x1_S262144x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KernRun.lean ====
/-
  The kernel program's run with its result named.

  The program is a stretch of host operations, the projection kernel over 8 row blocks, three stretches of host
  operations (edge scores, the dense attention matrix), and the softmax-and-aggregate kernel over 32 row blocks.
  Every weakly fair execution terminates without a fault; afterwards the result buffer holds what the last
  segment boundary's contents say, and the five arguments are as launched.
-/
import proofs.«110029_j5119601017281_2_alg».proof.Proof.Gen.KernelIdeal.Frame

set_option maxRecDepth 16384

noncomputable section

namespace Cert.KernelIdeal.KernRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.KernRun

end
-- ==== Proof.KernTerms.lean ====
/-
  The host operations of the program between its two custom calls, composed into terms: the edge endpoints read out of
  the 2×E index array, the wrap of a negative node index, the per-edge attention score (three matrix-vector products,
  two gathers, two sums and the leaky rectifier), and the scatter of the scores into the dense N×N matrix of zeros.
-/
import proofs.«110029_j5119601017281_2_alg».proof.Proof.Gen.KernelIdeal
import Idealize.ShloMosaic.PureOps.Ideal

noncomputable section

namespace Cert.KernelIdeal.KernValue

open Idealize.ShloMosaic Cert.KernelIdeal Cert.KernelIdeal.Gen

/-- The source endpoints: row 0 of the 2×E index array, as a length-E vector. -/
def srcK (ei : IVec S2x262144 32) : IVec S262144 32 :=
  shapeCast S262144 (extractStridedSlice S1x262144 ![0, 0] ei slices_S2x262144_S1x262144_0_0) shapeCasts_S1x262144_S262144

/-- The destination endpoints: row 1 of the 2×E index array, as a length-E vector. -/
def dstK (ei : IVec S2x262144 32) : IVec S262144 32 :=
  shapeCast S262144 (extractStridedSlice S1x262144 ![1, 0] ei slices_S2x262144_S1x262144_1_0) shapeCasts_S1x262144_S262144

/-- The wrap of a negative index: v + 8192 where v < 0 (signed), v elsewhere. -/
def normIdx (v : IVec S262144 32) : IVec S262144 32 :=
  select (cmpi .slt v (broadcastInDim S262144 ![] bcast_S_S262144 (constantI S_ 32 0#32)))
    (addi v (broadcastInDim S262144 ![] bcast_S_S262144 (constantI S_ 32 8192#32))) v

/-- The pre-activation score of every edge: (h·a₁)[src] + (h·a₂)[dst] + ea·a₃. -/
def preK (h : FVec Ideal S8192x128 .f32) (ei : IVec S2x262144 32) (ea : FVec Ideal S262144x64 .f32)
    (a : FVec Ideal S1x320 .f32) : FVec Ideal S262144 .f32 :=
  addf
    (addf
      (Host.gather gather_S8192_S262144x1_S262144_n_0_n_n_0_1_1
        (shapeCast S8192
          (Host.dotGeneral (F := Ideal) dot_S8192x128_S128x1_S8192x1_1_0_0_1_n_n none h
            (transpose S128x1 [1, 0] (extractStridedSlice S1x128 ![0, 0] a slices_S1x320_S1x128_0_0) transposes_S1x128_S128x1_1_0))
          shapeCasts_S8192x1_S8192)
        (broadcastInDim S262144x1 ![0] bcast_S262144_S262144x1_0 (normIdx (srcK ei))))
      (Host.gather gather_S8192_S262144x1_S262144_n_0_n_n_0_1_1
        (shapeCast S8192
          (Host.dotGeneral (F := Ideal) dot_S8192x128_S128x1_S8192x1_1_0_0_1_n_n none h
            (transpose S128x1 [1, 0] (extractStridedSlice S1x128 ![0, 128] a slices_S1x320_S1x128_0_128) transposes_S1x128_S128x1_1_0))
          shapeCasts_S8192x1_S8192)
        (broadcastInDim S262144x1 ![0] bcast_S262144_S262144x1_0 (normIdx (dstK ei)))))
    (shapeCast S262144
      (Host.dotGeneral (F := Ideal) dot_S262144x64_S64x1_S262144x1_1_0_0_1_n_n none ea
        (transpose S64x1 [1, 0] (extractStridedSlice S1x64 ![0, 256] a slices_S1x320_S1x64_0_256) transposes_S1x64_S64x1_1_0))
      shapeCasts_S262144x1_S262144)

/-- The leaky rectifier with slope 0.2 (the float pattern 0x3E4CCCCD), entry by entry. -/
def leakyK (v : FVec Ideal S262144 .f32) : FVec Ideal S262144 .f32 :=
  select (cmpf .oge v (broadcastInDim S262144 ![] bcast_S_S262144 (constant (F := Ideal) S_ .f32 0x00000000#32)))
    v
    (mulf (broadcastInDim S262144 ![] bcast_S_S262144 (id (constant (F := Ideal) S_ .f32 0x3E4CCCCD#32))) v)

/-- The score of every edge. -/
def scoreK (h : FVec Ideal S8192x128 .f32) (ei : IVec S2x262144 32) (ea : FVec Ideal S262144x64 .f32)
    (a : FVec Ideal S1x320 .f32) : FVec Ideal S262144 .f32 :=
  leakyK (preK h ei ea a)

/-- The N×N matrix of zeros with the score of every edge written at (src, dst). -/
def attK (e : FVec Ideal S262144 .f32) (ei : IVec S2x262144 32) : FVec Ideal S8192x8192 .bf16 :=
  Host.scatter scatter_S8192x8192_S262144x2_S262144_n_01_01_1 (fun _ b => b)
    (broadcastInDim S8192x8192 ![] bcast_S_S8192x8192 (constant (F := Ideal) S_ .bf16 0x0000#16))
    (concatenate S262144x2 1
      [⟨S262144x1, broadcastInDim S262144x1 ![0] bcast_S262144_S262144x1_0 (normIdx (srcK ei))⟩,
       ⟨S262144x1, broadcastInDim S262144x1 ![0] bcast_S262144_S262144x1_0 (normIdx (dstK ei))⟩]
      concatenates_S262144x1_S262144x1_S262144x2_d1)
    (truncf .bf16 e bitsLt_bf16_f32)

end Cert.KernelIdeal.KernValue

end
-- ==== Proof.Spec.lean ====
/-
  The mathematics of the graph-attention layer, over the extended reals, index by index.

  A node feature matrix x (8192×128) is projected to h = x·Wᵀ. Each of the 262144 edges gets a score; the scores are
  written into an 8192×8192 matrix A of zeros. Every row of A is turned into softmax weights and the output row is
  the weighted sum of the rows of h.

  Two arrangements of the last step are stated here. With m_r = max_j A(r,j), p(r,j) = exp(A(r,j) − m_r) and
  l_r = Σ_j p(r,j):
    * `aggDivAfter`  : (Σ_j p(r,j) · h(j,c)) / l_r      — the sum first, one division per entry;
    * `aggDivBefore` : Σ_j (p(r,j) / l_r) · h(j,c)      — the weights normalised first.
  They agree when every entry of A and of h is a real number (`aggDivAfter_eq_aggDivBefore`, proved elsewhere).
-/
import Idealize.ShloMosaic.PureOps.Ideal
import Idealize.ShloMosaic.PureOps.Ideal.Laws
import Idealize.ShloMosaic.Lib.ValueIdx

noncomputable section

open scoped BigOperators

namespace Cert.Gat

open Idealize.ShloMosaic Idealize.ShloMosaic.ValueIdx

/-- Node features: 8192 nodes, 128 channels. -/
abbrev SNF : Shape := ⟨2, ![8192, 128]⟩
/-- The projection's weight, 128×128. -/
abbrev SWW : Shape := ⟨2, ![128, 128]⟩
/-- The dense attention matrix, 8192×8192. -/
abbrev SNN : Shape := ⟨2, ![8192, 8192]⟩

/-- The projection with the weight already transposed: entry (r, c) is Σ_k x(r,k) · wt(k,c). -/
def projT (x : SNF.Idx → EReal) (wt : SWW.Idx → EReal) : SNF.Idx → EReal :=
  fun i => ∑ k : Fin 128, x (ix2 (i 0) k) * wt (ix2 k (i 1))

/-- The projection h = x·Wᵀ: entry (r, c) is Σ_k x(r,k) · W(c,k). -/
def proj (x : SNF.Idx → EReal) (W : SWW.Idx → EReal) : SNF.Idx → EReal :=
  fun i => ∑ k : Fin 128, x (ix2 (i 0) k) * W (ix2 (i 1) k)

/-- The largest entry of row r of A, folded from −∞ (the float pattern 0xFF800000). -/
def rowMax (A : SNN.Idx → EReal) (r : Fin 8192) : EReal :=
  (Finset.univ : Finset (Fin 8192)).fold max (Ideal.ofBits .f32 0xFF800000#32) (fun j => A (ix2 r j))

/-- The unnormalised softmax weight exp(A(r,j) − m_r). -/
def weight (A : SNN.Idx → EReal) (r j : Fin 8192) : EReal :=
  Ideal.exp (A (ix2 r j) - rowMax A r)

/-- The softmax denominator of row r. -/
def rowDen (A : SNN.Idx → EReal) (r : Fin 8192) : EReal :=
  ∑ j : Fin 8192, weight A r j

/-- Aggregation with one division after the sum. -/
def aggDivAfter (A : SNN.Idx → EReal) (h : SNF.Idx → EReal) : SNF.Idx → EReal :=
  fun i => Ideal.div (∑ j : Fin 8192, weight A (i 0) j * h (ix2 j (i 1))) (rowDen A (i 0))

/-- Aggregation with the weights normalised before the sum. -/
def aggDivBefore (A : SNN.Idx → EReal) (h : SNF.Idx → EReal) : SNF.Idx → EReal :=
  fun i => ∑ j : Fin 8192, Ideal.div (weight A (i 0) j) (rowDen A (i 0)) * h (ix2 j (i 1))

end Cert.Gat

end
-- ==== Proof.KernOutDef.lean ====
/-
  The kernel program's result as one function of its arguments, and its projection read as x·Wᵀ.

  The first kernel multiplies the node features by the transposed weight; the host operations between the kernels
  turn that projection into edge scores and the dense attention matrix; the second kernel forms, for every row, the
  softmax-weighted sum of the projection's rows, dividing once per entry by the row's denominator.
-/
import proofs.«110029_j5119601017281_2_alg».proof.Proof.KernTerms
import proofs.«110029_j5119601017281_2_alg».proof.Proof.Spec
import Idealize.ShloMosaic.Lib.ValueLayout

noncomputable section

namespace Cert.KernelIdeal.KernOut

open Idealize.ShloMosaic
open Cert.KernelIdeal Cert.KernelIdeal.Gen Cert.KernelIdeal.KernValue

/-- The projection as the first kernel computes it: x times the transposed weight. -/
def hK (x : FVec Ideal S8192x128 .f32) (W : FVec Ideal S128x128 .f32) : FVec Ideal S8192x128 .f32 :=
  Cert.Gat.projT x (transpose S128x128 [1, 0] W transposes_S128x128_S128x128_1_0)

/-- The program's result as a function of its five arguments. -/
def outK (x : FVec Ideal S8192x128 .f32) (ei : IVec S2x262144 32) (ea : FVec Ideal S262144x64 .f32)
    (W : FVec Ideal S128x128 .f32) (a : FVec Ideal S1x320 .f32) : FVec Ideal S8192x128 .f32 :=
  Cert.Gat.aggDivAfter (attK (scoreK (hK x W) ei ea a) ei) (hK x W)

/-- The first kernel's projection is x·Wᵀ: the transposed weight read back at (k, c) is W(c, k). -/
theorem hK_eq_proj (x : FVec Ideal S8192x128 .f32) (W : FVec Ideal S128x128 .f32) : hK x W = Cert.Gat.proj x W := by
  funext i
  show (∑ k : Fin 128, x (ValueIdx.ix2 (i 0) k) * transpose S128x128 [1, 0] W transposes_S128x128_S128x128_1_0 (ValueIdx.ix2 k (i 1)))
      = ∑ k : Fin 128, x (ValueIdx.ix2 (i 0) k) * W (ValueIdx.ix2 (i 1) k)
  refine Finset.sum_congr rfl fun k _ => ?_
  exact congrArg (x (ValueIdx.ix2 (i 0) k) * ·) (ValueIdx.transpose_ix2_apply W _ k (i 1))

end Cert.KernelIdeal.KernOut

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.AggBlock.lean ====
/-
  One block of the softmax-and-aggregate step, read at an index.

  The body takes a 256×8192 block x of the attention matrix (256 consecutive rows, all columns) and the whole 8192×128
  projected feature matrix h. For each of its rows p it takes the row maximum m_p (folded from −∞), the weights
  w(p,j) = exp(x(p,j) − m_p), their sum l_p = Σ_j w(p,j), the weighted sums Σ_j w(p,j)·h(j,q), and stores
  (Σ_j w(p,j)·h(j,q)) / l_p at (p, q). Changes of float format and casts to the same shape do nothing to the
  extended reals; the row maximum and the row sum are kept as a 256×1 column and spread back over the row; the weighted
  sums are one 256×8192 by 8192×128 matrix product into a zero accumulator.
-/
import proofs.«110029_j5119601017281_2_alg».proof.Proof.Gen.KernelIdeal.Skeleton
import proofs.«110029_j5119601017281_2_alg».proof.Proof.Spec
import proofs.«110029_j5119601017281_2_alg».proof.Proof.LibPlainDot
import proofs.«110029_j5119601017281_2_alg».proof.Proof.LibAxisFold
import proofs.«110029_j5119601017281_2_alg».proof.Proof.LibKeepdims

noncomputable section

open scoped BigOperators

namespace Cert.KernelIdeal.Agg

open Idealize.ShloMosaic Idealize.ShloMosaic.ValueIdx Cert.KernelIdeal Cert.KernelIdeal.Gen

/-- The printed contraction record of the 256×8192 by 8192×128 product is the plain one. -/
theorem dot_plain : dot_S256x8192_S8192x128_S256x128_1_0_0_1_n_n = DotDims.plain 256 8192 128 := rfl

/-- The largest entry of row p of a 256×8192 block, folded from −∞. -/
def blockMax (x0 : FVec Ideal S256x8192 .bf16) (p : Fin 256) : EReal :=
  (Finset.univ : Finset (Fin 8192)).fold max (Ideal.ofBits .f32 0xFF800000#32) (fun j => x0 (ix2 p j))

/-- The block's row maxima kept as a column and spread over the row, at (p, j): the maximum of row p. -/
theorem rowMax_spread (x : FVec Ideal S256x8192 .f32) (p : Fin 256) (j : Fin 8192) :
    broadcastTo S256x8192
        (shapeCast S256x1 (multiReduction (F := Ideal) .maximumf [1] S256 x 0xFF800000#32 reduces_S256x8192_S256 (.inl rfl) rfl)
          shapeCasts_S256_S256x1) broadcasts_S256x1_S256x8192 (ix2 p j)
      = (Finset.univ : Finset (Fin 8192)).fold max (Ideal.ofBits .f32 0xFF800000#32) (fun k => x (ix2 p k)) := by
  refine (Keepdims.broadcastTo_a1_ab_apply _ _ p j).trans ?_
  refine (Keepdims.shapeCast_a_a1_apply _ _ p 0).trans ?_
  exact AxisFold.max_second_apply x _ _ _ _ p

/-- The block's unnormalised softmax weights: exp(entry − row maximum), as the body computes them. -/
def blockExp (x0 : FVec Ideal S256x8192 .bf16) : FVec Ideal S256x8192 .f32 :=
  exp (subf (extf .f32 (shapeCast S256x8192 x0 shapeCasts_S256x8192_S256x8192) bitsLt_bf16_f32)
    (broadcastTo S256x8192
      (shapeCast S256x1
        (multiReduction .maximumf [1] S256 (extf .f32 (shapeCast S256x8192 x0 shapeCasts_S256x8192_S256x8192) bitsLt_bf16_f32)
          0xFF800000#32 reduces_S256x8192_S256 (.inl rfl) rfl)
        shapeCasts_S256_S256x1)
      broadcasts_S256x1_S256x8192))

/-- A change of float format and a cast to the same shape leave the extended reals as they are. -/
theorem widen_eq (x0 : FVec Ideal S256x8192 .bf16) :
    extf .f32 (shapeCast S256x8192 x0 shapeCasts_S256x8192_S256x8192) bitsLt_bf16_f32 = (x0 : FVec Ideal S256x8192 .f32) := by
  rw [shapeCast_self]; rfl

/-- The weight at (p, j) is exp(x(p,j) − max of row p). -/
theorem blockExp_apply (x0 : FVec Ideal S256x8192 .bf16) (p : Fin 256) (j : Fin 8192) :
    blockExp x0 (ix2 p j) = Ideal.exp (x0 (ix2 p j) - blockMax x0 p) := by
  unfold blockExp
  rw [widen_eq]
  show Ideal.exp ((x0 : FVec Ideal S256x8192 .f32) (ix2 p j) - _) = _
  refine congrArg (fun m => Ideal.exp (x0 (ix2 p j) - m)) ?_
  exact rowMax_spread (x0 : FVec Ideal S256x8192 .f32) p j

/-- The body's stored value at (p, q): the weighted sum of column q of the second operand over row p's weights, divided by
    the sum of row p's weights. -/
theorem payload_apply (x0 : FVec Ideal S256x8192 .bf16) (x1 : FVec Ideal S8192x128 .f32) (p : Fin 256) (q : Fin 128) :
    k1_pay1 (F := Ideal) x0 x1 (ix2 p q)
      = Ideal.div (∑ j : Fin 8192, Ideal.exp (x0 (ix2 p j) - blockMax x0 p) * x1 (ix2 j q))
          (∑ j : Fin 8192, Ideal.exp (x0 (ix2 p j) - blockMax x0 p)) := by
  have hpay : k1_pay1 (F := Ideal) x0 x1
      = divf (matmul dot_S256x8192_S8192x128_S256x128_1_0_0_1_n_n none (truncf .bf16 (blockExp x0) bitsLt_bf16_f32)
            (truncf .bf16 (shapeCast S8192x128 x1 shapeCasts_S8192x128_S8192x128) bitsLt_bf16_f32)
            (constant S256x128 .f32 0x00000000#32))
          (broadcastTo S256x128
            (shapeCast S256x1 (multiReduction .add [1] S256 (blockExp x0) 0x00000000#32 reduces_S256x8192_S256 (.inl rfl) rfl)
              shapeCasts_S256_S256x1) broadcasts_S256x1_S256x128) := rfl
  rw [hpay, divf_apply, dot_plain]
  refine congrArg₂ Ideal.div ?_ ?_
  · refine (PlainDot.matmul_zero_apply none _ _ p q).trans ?_
    refine Finset.sum_congr rfl fun k _ => ?_
    rw [truncf_apply, truncf_apply, shapeCast_self, blockExp_apply]
  · refine (Keepdims.broadcastTo_a1_ab_apply _ _ p q).trans ?_
    refine (Keepdims.shapeCast_a_a1_apply _ _ p 0).trans ?_
    refine (AxisFold.sum_second_apply _ _ _ _ p).trans ?_
    exact Finset.sum_congr rfl fun k _ => blockExp_apply x0 p k

end Cert.KernelIdeal.Agg

end
-- ==== Proof.AggFinal.lean ====
/-
  From the blocks of the softmax-and-aggregate step to its whole output array.

  The step runs over 32 grid points. Point t takes rows 256·t … 256·t + 255 of the 8192×8192 attention matrix (all
  columns) and the whole 8192×128 feature matrix, and writes rows 256·t … 256·t + 255 of the 8192×128 output. Row p of
  point t's attention block is row 256·t + p of the matrix, so the row maximum, the weights and their sum that the body
  takes over the block's row are the specification's for that row, and the entry stored at (p, q) is the specification's
  entry (256·t + p, q). Row r of the output is written by point r / 256, so the 32 blocks cover the array and it ends
  holding the specification's aggregation (the sum first, one division per entry) everywhere.
-/
import proofs.«110029_j5119601017281_2_alg».proof.Proof.Gen.KernelIdeal.Frame
import proofs.«110029_j5119601017281_2_alg».proof.Proof.Spec
import proofs.«110029_j5119601017281_2_alg».proof.Proof.AggBlock
import Idealize.ShloMosaic.Lib.Pipeline.Value

noncomputable section

open scoped BigOperators

namespace Cert.KernelIdeal.Agg

open Idealize.ShloMosaic Idealize.ShloMosaic.TcCoe Idealize.ShloMosaic.ValueIdx Idealize.SL.Sem
open Idealize.ShloMosaic.Pipeline (Dat)
open Cert.KernelIdeal Cert.KernelIdeal.Gen

/-- The zero offset of a whole-buffer access. -/
theorem zero_offset : (![0, 0] : Fin 2 → Nat) = fun _ => 0 := funext fun a => by fin_cases a <;> rfl

/-- Where the three windows' blocks sit at grid point t: the attention rows' block and the output block at block row t,
    the feature matrix whole. Decided over the 32 points. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block whose row p is row r of the attention matrix A, beside the whole feature matrix h, stores at (p, q) the
    specification's entry (r, q). -/
theorem block_value (A : S8192x8192.Idx → EReal) (h : S8192x128.Idx → EReal)
    (x0 : FVec Ideal S256x8192 .bf16) (x1 : FVec Ideal S8192x128 .f32) (p : Fin 256) (q : Fin 128) (r : Fin 8192)
    (hx0 : ∀ j : Fin 8192, x0 (ix2 p j) = A (ix2 r j)) (hx1 : ∀ (j : Fin 8192) (q : Fin 128), x1 (ix2 j q) = h (ix2 j q)) :
    k1_pay1 (F := Ideal) x0 x1 (ix2 p q) = Cert.Gat.aggDivAfter A h (ix2 r q) := by
  rw [payload_apply]
  have hm : blockMax x0 p = Cert.Gat.rowMax A r :=
    congrArg (fun f : Fin 8192 → EReal => (Finset.univ : Finset (Fin 8192)).fold max (Ideal.ofBits .f32 0xFF800000#32) f)
      (funext hx0)
  have hw : ∀ j : Fin 8192, Ideal.exp (x0 (ix2 p j) - blockMax x0 p) = Cert.Gat.weight A r j := fun j => by
    rw [hx0 j, hm]; rfl
  show _ = Ideal.div (∑ j : Fin 8192, Cert.Gat.weight A r j * h (ix2 j q)) (Cert.Gat.rowDen A r)
  refine congrArg₂ Ideal.div (Finset.sum_congr rfl fun j _ => by rw [hw j, hx1 j q]) ?_
  exact Finset.sum_congr rfl fun j _ => hw j

/-- The attention window's block at point t is rows 256·t … 256·t + 255 of the attention matrix. -/
theorem attention_block_apply (V : (c : Dev nD) → (b : Ref sig .tc) → Buf (Elt Ideal) ((c : Thread nD τ).loc b)) (c : Dev nD)
    (t : Fin cfg1.N) (p : Fin 256) (j : Fin 8192) (r : Fin 8192) (hr : r.val = 256 * t.val + p.val) :
    (iblk1 (F := Ideal) V c 0 t : FVec Ideal S256x8192 .bf16) (ix2 p j) = (V c main_v50 : S8192x8192.Idx → EReal) (ix2 r j) := by
  obtain ⟨e00, e01, -⟩ := block_index t
  unfold iblk1
  rw [View.read_apply]
  show (V c main_v50 : S8192x8192.Idx → EReal) _ = _
  refine congrArg (V c main_v50 : S8192x8192.Idx → EReal) ?_
  funext a
  apply Fin.ext
  match a with
  | ⟨0, _⟩ => show win1_0.index t (0 : Fin 2) * 256 + 1 * p.val = r.val; omega
  | ⟨1, _⟩ => show win1_0.index t (1 : Fin 2) * 8192 + 1 * j.val = j.val; omega

/-- The feature window's block at every point is the whole feature matrix. -/
theorem feature_block_apply (V : (c : Dev nD) → (b : Ref sig .tc) → Buf (Elt Ideal) ((c : Thread nD τ).loc b)) (c : Dev nD)
    (t : Fin cfg1.N) (j : Fin 8192) (q : Fin 128) :
    (iblk1 (F := Ideal) V c 1 t : FVec Ideal S8192x128 .f32) (ix2 j q) = (V c main_v1 : S8192x128.Idx → EReal) (ix2 j q) := by
  obtain ⟨-, -, e10, e11, -⟩ := block_index t
  unfold iblk1
  rw [View.read_apply]
  show (V c main_v1 : S8192x128.Idx → EReal) _ = _
  refine congrArg (V c main_v1 : S8192x128.Idx → EReal) ?_
  funext a
  apply Fin.ext
  match a with
  | ⟨0, _⟩ => show win1_1.index t (0 : Fin 2) * 8192 + 1 * j.val = j.val; omega
  | ⟨1, _⟩ => show win1_1.index t (1 : Fin 2) * 128 + 1 * q.val = q.val; omega

/-- What point t writes back is block t of the specification's array. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Gat.aggDivAfter (V c main_v50) (V c main_v1)) := by
  show (cfg1.win 2).cut (grid1.coords t) ((dat1 V c).after 2 t) = _
  rw [after1_2]
  unfold out1_2
  rw [View.canon_unit_zero zero_offset]
  simp only [View.ld_unit_zero (S := S256x8192) zero_offset, View.ld_unit_zero (S := S8192x128) zero_offset]
  have ht : t.val < 32 := lt_of_lt_of_eq t.isLt N_1
  obtain ⟨-, -, -, -, e20, e21⟩ := block_index t
  funext y
  obtain ⟨p, q, rfl⟩ : ∃ (p : Fin 256) (q : Fin 128), y = ix2 p q := ⟨y 0, y 1, eq_ix2 y⟩
  have hp : p.val < 256 := p.isLt
  show k1_pay1 (F := Ideal) (iblk1 V c 0 t) (iblk1 V c 1 t) (ix2 p q)
    = Cert.Gat.aggDivAfter (V c main_v50) (V c main_v1) (((cfg1.win 2).blk t).view.emb (ix2 p q))
  have hr : ((cfg1.win 2).blk t).view.emb (ix2 p q) = (ix2 (⟨256 * t.val + p.val, by omega⟩ : Fin 8192) q : S8192x128.Idx) := by
    funext a
    apply Fin.ext
    match a with
    | ⟨0, _⟩ => show win1_2.index t (0 : Fin 2) * 256 + 1 * p.val = 256 * t.val + p.val; omega
    | ⟨1, _⟩ => show win1_2.index t (1 : Fin 2) * 128 + 1 * q.val = q.val; omega
  rw [hr]
  exact block_value (V c main_v50) (V c main_v1) (iblk1 V c 0 t) (iblk1 V c 1 t) p q ⟨256 * t.val + p.val, by omega⟩
    (fun j => attention_block_apply V c t p j _ rfl) (fun j q => feature_block_apply V c t j q)

/-- An index of the output array is in point t's block when each coordinate is in the block's range on its axis. -/
theorem mem_block (t : Fin cfg1.N) (i : S8192x128.Idx) :
    i ∈ ((cfg1.win 2).blk t).view.set
      ↔ ∀ a : Fin 2, win1_2.index t a * S256x128.size a ≤ (i a).val ∧ (i a).val < win1_2.index t a * S256x128.size a + S256x128.size a := by
  show i ∈ ((View.whole main_v51).slice (win1_2.rect t)).set ↔ _
  rw [View.set_slice_whole, Rect.mem_set_unit]
  exact Iff.rfl

/-- Every entry of the output array is written back by some point: row r by point r / 256. -/
theorem covered (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  have hN : cfg1.N = 32 := N_1
  have hlt : (i 0).val / 256 < cfg1.N := by rw [hN]; omega
  obtain ⟨-, -, -, -, e20, e21⟩ := block_index ⟨(i 0).val / 256, hlt⟩
  refine ⟨⟨(i 0).val / 256, hlt⟩, flush1_2 _, ?_⟩
  rw [mem_block]
  intro a
  match a with
  | ⟨0, _⟩ =>
    show win1_2.index ⟨(i 0).val / 256, hlt⟩ (0 : Fin 2) * 256 ≤ (i 0).val
      ∧ (i 0).val < win1_2.index ⟨(i 0).val / 256, hlt⟩ (0 : Fin 2) * 256 + 256
    rw [e20]; show (i 0).val / 256 * 256 ≤ (i 0).val ∧ (i 0).val < (i 0).val / 256 * 256 + 256; omega
  | ⟨1, _⟩ =>
    show win1_2.index ⟨(i 0).val / 256, hlt⟩ (1 : Fin 2) * 128 ≤ (i 1).val
      ∧ (i 1).val < win1_2.index ⟨(i 0).val / 256, hlt⟩ (1 : Fin 2) * 128 + 128
    rw [e21]; omega

/-- The output array after the softmax-and-aggregate region: the specification's aggregation, one division after the sum,
    of the attention matrix and the feature matrix as the region finds them. -/
theorem final (V : (c : Dev nD) → (b : Ref sig .tc) → Buf (Elt Ideal) ((c : Thread nD τ).loc b)) (c : Dev nD) :
    (Gen.dat1 (F := Ideal) V c).arrAt 2 cfg1.N = Cert.Gat.aggDivAfter (V c main_v50) (V c main_v1) :=
  (dat1 (F := Ideal) V c).arrAt_eq_of_cover 2 (Cert.Gat.aggDivAfter (V c main_v50) (V c main_v1))
    (fun t _ => flushed_eq V c t) covered

end Cert.KernelIdeal.Agg

end
-- ==== Proof.ProjFinal.lean ====
/-
  The value of the projection call: after its eight grid points the result array holds, at row r and channel c, the
  sum over k of x(r,k) · wt(k,c) — the product of the node features with the already transposed weight.

  Grid point t handles rows 1024·t … 1024·t + 1023: it reads that block of rows of x and the whole 128×128 weight,
  multiplies them (the changes of float format and the cast to the same shape are the identity on extended reals; the
  accumulator is the zero constant) and writes the 1024×128 product back to the same rows of the result. The eight row
  blocks tile the 8192 rows, so every entry of the result is written by the point r / 1024, and only with entries of x
  of the same row.
-/
import proofs.«110029_j5119601017281_2_alg».proof.Proof.Gen.KernelIdeal.Frame
import proofs.«110029_j5119601017281_2_alg».proof.Proof.Spec
import proofs.«110029_j5119601017281_2_alg».proof.Proof.LibPlainDot
import Idealize.ShloMosaic.Lib.Pipeline.Value

noncomputable section

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The printed contraction record is the plain 1024×128 by 128×128 product. -/
theorem dot_eq_plain : dot_S1024x128_S128x128_S1024x128_1_0_0_1_n_n = DotDims.plain 1024 128 128 := rfl

/-- The body's product at (p, q): the sum over k of the row block's (p, k) times the weight's (k, q). -/
theorem payload_apply (x0 : FVec Ideal S1024x128 .f32) (x1 : FVec Ideal S128x128 .f32) (p : Fin 1024) (q : Fin 128) :
    k0_pay1 (F := Ideal) x0 x1 (ix2 p q) = ∑ k : Fin 128, x0 (ix2 p k) * x1 (ix2 k q) := by
  unfold k0_pay1
  rw [shapeCast_self, dot_eq_plain]
  exact PlainDot.matmul_zero_apply none x0 x1 p q

/-- The body's product at an index of the block is the specification's entry at an index of the array, as soon as
    the block's row is the array's row and the block's weight is the array's weight. -/
theorem payload_eq_projT (A : Cert.Gat.SNF.Idx → EReal) (W : Cert.Gat.SWW.Idx → EReal)
    (x0 : FVec Ideal S1024x128 .f32) (x1 : FVec Ideal S128x128 .f32) (j : S1024x128.Idx) (i : Cert.Gat.SNF.Idx)
    (hx0 : ∀ k : Fin 128, x0 (ix2 (j 0) k) = A (ix2 (i 0) k))
    (hx1 : ∀ k : Fin 128, x1 (ix2 k (j 1)) = W (ix2 k (i 1))) :
    k0_pay1 (F := Ideal) x0 x1 j = Cert.Gat.projT A W i := by
  obtain ⟨p, q, rfl⟩ : ∃ (p : Fin 1024) (q : Fin 128), j = ix2 p q := ⟨j 0, j 1, eq_ix2 j⟩
  rw [payload_apply]
  unfold Cert.Gat.projT
  exact Finset.sum_congr rfl fun k _ => by rw [← hx0 k, ← hx1 k]

variable (V : (c : Dev nD) → (b : Ref sig .tc) → Buf (Elt Ideal) ((c : Thread nD τ).loc b))

/-- Both coordinates of the unit access's offset are zero. -/
theorem offset_zero : (![0, 0] : Fin 2 → Nat) = fun _ => 0 := funext fun a => by fin_cases a <;> rfl

/-- The block indices at each of the eight points: point t takes row block t of the features and of the result, at
    column block 0; the weight is one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 1024·t … of the product of the features and the weight as the call finds them:
    the row block of the features starts at the same row as the result's block, and the weight's one block is the
    weight. -/
theorem flushed_eq (c : Dev nD) (t : Fin cfg0.N) :
    (dat0 (F := Ideal) V c).flushed 2 t
      = ((cfg0.win 2).blk t).view.read (Elt Ideal) (Cert.Gat.projT (V c main_arg0) (V c main_v0)) := by
  show (cfg0.win 2).cut (grid0.coords t) ((dat0 V c).after 2 t) = _
  rw [after0_2]
  unfold out0_2
  rw [View.canon_unit_zero offset_zero]
  simp only [View.ld_unit_zero (S := S1024x128) offset_zero, View.ld_unit_zero (S := S128x128) offset_zero]
  obtain ⟨e00, e01, e10, e11, e20, e21⟩ := block_indices t
  funext j
  refine payload_eq_projT (V c main_arg0) (V c main_v0) (iblk0 V c 0 t) (iblk0 V c 1 t) j (((cfg0.win 2).blk t).view.emb j) (fun k => ?_) (fun k => ?_)
  · show V c main_arg0 (((cfg0.win 0).blk t).view.emb (ix2 (j 0) k)) = V c main_arg0 _
    refine congrArg _ (funext fun a => Fin.ext ?_)
    match a with
    | ⟨0, _⟩ =>
      show win0_0.index t (0 : Fin 2) * 1024 + 1 * (j 0).val = win0_2.index t (0 : Fin 2) * 1024 + 1 * (j 0).val
      rw [e00, e20]
    | ⟨1, _⟩ =>
      show win0_0.index t (1 : Fin 2) * 128 + 1 * k.val = k.val
      rw [e01]; omega
  · show V c main_v0 (((cfg0.win 1).blk t).view.emb (ix2 k (j 1))) = V c main_v0 _
    refine congrArg _ (funext fun a => Fin.ext ?_)
    match a with
    | ⟨0, _⟩ =>
      show win0_1.index t (0 : Fin 2) * 128 + 1 * k.val = k.val
      rw [e10]; omega
    | ⟨1, _⟩ =>
      show win0_1.index t (1 : Fin 2) * 128 + 1 * (j 1).val = win0_2.index t (1 : Fin 2) * 128 + 1 * (j 1).val
      rw [e11, e21]

/-- An index of the result array is in point t's block iff each coordinate is in the block's range on its axis. -/
theorem mem_block (t : Fin cfg0.N) (i : S8192x128.Idx) :
    i ∈ ((cfg0.win 2).blk t).view.set
      ↔ ∀ a : Fin 2, win0_2.index t a * S1024x128.size a ≤ (i a).val
          ∧ (i a).val < win0_2.index t a * S1024x128.size a + S1024x128.size a := by
  show i ∈ ((View.whole main_v1).slice (win0_2.rect t)).set ↔ _
  rw [View.set_slice_whole, Rect.mem_set_unit]
  exact Iff.rfl

/-- The array after the eight points: the product of the features and the transposed weight. Row r is written by the
    point r / 1024. -/
theorem final (c : Dev nD) :
    (dat0 (F := Ideal) V c).arrAt 2 cfg0.N = Cert.Gat.projT (V c main_arg0) (V c main_v0) :=
  (dat0 (F := Ideal) V c).arrAt_eq_of_cover 2 (Cert.Gat.projT (V c main_arg0) (V c main_v0))
    (fun t _ => flushed_eq V c t) fun i => by
      have h0 : (i 0).val < 8192 := (i 0).isLt
      have h1 : (i 1).val < 128 := (i 1).isLt
      have hN : cfg0.N = 8 := N_0
      obtain ⟨t, ht⟩ : ∃ t : Fin cfg0.N, t.val = (i 0).val / 1024 := ⟨⟨(i 0).val / 1024, by rw [hN]; omega⟩, rfl⟩
      obtain ⟨-, -, -, -, e20, e21⟩ := block_indices t
      refine ⟨t, flush0_2 t, ?_⟩
      rw [mem_block]
      intro a
      match a with
      | ⟨0, _⟩ =>
        show win0_2.index t (0 : Fin 2) * 1024 ≤ (i 0).val ∧ (i 0).val < win0_2.index t (0 : Fin 2) * 1024 + 1024
        rw [e20, ht]; omega
      | ⟨1, _⟩ =>
        show win0_2.index t (1 : Fin 2) * 128 ≤ (i 1).val ∧ (i 1).val < win0_2.index t (1 : Fin 2) * 128 + 128
        rw [e21]; omega

end Cert.KernelIdeal.Proj

end
-- ==== Proof.KernOut.lean ====
/-
  The kernel program's result as one function of its arguments.

  The projection kernel leaves h = x·(Wᵀ) in its output array; the host operations between the two kernels compute
  the edge scores from h and write them into the dense attention matrix; the softmax-and-aggregate kernel leaves, in the
  result array, the softmax-weighted sums of the rows of h, each divided once by its row's denominator.
-/
import proofs.«110029_j5119601017281_2_alg».proof.Proof.KernRun
import proofs.«110029_j5119601017281_2_alg».proof.Proof.KernTerms
import proofs.«110029_j5119601017281_2_alg».proof.Proof.KernOutDef
import proofs.«110029_j5119601017281_2_alg».proof.Proof.Spec
import proofs.«110029_j5119601017281_2_alg».proof.Proof.AggFinal
import proofs.«110029_j5119601017281_2_alg».proof.Proof.ProjFinal
import Idealize.ShloMosaic.Lib.StableHlo.Run
import Idealize.ShloMosaic.Lib.ValueLayout

set_option maxRecDepth 16384

noncomputable section

namespace Cert.KernelIdeal.KernOut

open Idealize.ShloMosaic Idealize.ShloMosaic.TcCoe Idealize.SL.Sem
open Cert.KernelIdeal Cert.KernelIdeal.Gen Cert.KernelIdeal.KernValue

variable (m : (ℓ : Loc nD τ sig) → Buf (Elt Ideal) ℓ) (ρ : Dev nD → PrngReg)

/-- No operation of a stretch writes the buffer: the stretch leaves it as it was. -/
macro "not_written" : tactic =>
  `(tactic| (refine StableHlo.after_of_forall_not_mem _ _ (List.forall_iff_forall_mem.mp ?_)
             simp only [hostOps0, hostOps1, hostOps1_1, hostOps1_2, List.Forall, StableHlo.nullary_writes, StableHlo.unary_writes, StableHlo.binary_writes,
               StableHlo.ternary_writes, StableHlo.quaternary_writes, StableHlo.reshape_writes, StableHlo.binaryIndexed_writes, Finset.mem_singleton]
             repeat' apply And.intro
             all_goals exact StableHlo.devRef_ne_of_ne (by decide)))

/-- The first kernel is entered with the node features as launched. -/
theorem V1_arg0 (c : Dev nD) : V1 m ρ c main_arg0 = m ((c : Thread nD τ).loc main_arg0) := by
  show StableHlo.after hostOps0 (W0 m ρ c) (Proc.devRef .tc main_arg0) = _
  refine Eq.trans ?_ (rfl : W0 m ρ c (Proc.devRef .tc main_arg0) = _)
  not_written

/-- The first kernel is entered with the transposed weight in its second operand. -/
theorem V1_v0 (c : Dev nD) :
    V1 m ρ c main_v0 = transpose S128x128 [1, 0] (m ((c : Thread nD τ).loc main_arg3)) transposes_S128x128_S128x128_1_0 := by
  show StableHlo.after hostOps0 (W0 m ρ c) (Proc.devRef .tc main_v0) = _
  after_results

/-- An argument the first kernel does not touch is, at its exit, as launched. -/
theorem W2_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

theorem W2_arg1 (c : Dev nD) : W2 m ρ c (Proc.devRef .tc main_arg1) = m ((c : Thread nD τ).loc main_arg1) :=
  W2_arg m ρ c main_arg1 (by decide) (by not_written)
theorem W2_arg2 (c : Dev nD) : W2 m ρ c (Proc.devRef .tc main_arg2) = m ((c : Thread nD τ).loc main_arg2) :=
  W2_arg m ρ c main_arg2 (by decide) (by not_written)
theorem W2_arg4 (c : Dev nD) : W2 m ρ c (Proc.devRef .tc main_arg4) = m ((c : Thread nD τ).loc main_arg4) :=
  W2_arg m ρ c main_arg4 (by decide) (by not_written)

/-- At the first kernel's exit its output array holds the projection. -/
theorem W2_v1 (c : Dev nD) :
    W2 m ρ c (Proc.devRef .tc main_v1) = hK (m ((c : Thread nD τ).loc main_arg0)) (m ((c : Thread nD τ).loc main_arg3)) := by
  refine (W2_arr m ρ c 2).trans ?_
  rw [Cert.KernelIdeal.Proj.final (V1 m ρ) c, V1_arg0, V1_v0]
  rfl

/-- The host operations between the kernels, from ANY contents: the attention matrix is the scatter of the scores
    computed from the projection and the arguments found there. -/
theorem between_v50 (Wv : Valuation τ sig (Elt Ideal)) :
    StableHlo.after hostOps1_2 (StableHlo.after hostOps1_1 (StableHlo.after hostOps1 Wv)) (Proc.devRef .tc main_v50)
      = attK (scoreK (Wv (Proc.devRef .tc main_v1)) (Wv (Proc.devRef .tc main_arg1)) (Wv (Proc.devRef .tc main_arg2))
          (Wv (Proc.devRef .tc main_arg4))) (Wv (Proc.devRef .tc main_arg1)) := by
  after_results_simp
  rfl

/-- The host operations between the kernels leave the projection's array alone. -/
theorem between_v1 (Wv : Valuation τ sig (Elt Ideal)) :
    StableHlo.after hostOps1_2 (StableHlo.after hostOps1_1 (StableHlo.after hostOps1 Wv)) (Proc.devRef .tc main_v1)
      = Wv (Proc.devRef .tc main_v1) := by
  calc StableHlo.after hostOps1_2 (StableHlo.after hostOps1_1 (StableHlo.after hostOps1 Wv)) (Proc.devRef .tc main_v1)
    _ = StableHlo.after hostOps1_1 (StableHlo.after hostOps1 Wv) (Proc.devRef .tc main_v1) := by not_written
    _ = StableHlo.after hostOps1 Wv (Proc.devRef .tc main_v1) := by not_written
    _ = Wv (Proc.devRef .tc main_v1) := by not_written

/-- The last boundary's contents at the result array. -/
theorem W6_v51 (c : Dev nD) :
    W6 m ρ c (Proc.devRef .tc main_v51)
      = outK (m ((c : Thread nD τ).loc main_arg0)) (m ((c : Thread nD τ).loc main_arg1)) (m ((c : Thread nD τ).loc main_arg2))
          (m ((c : Thread nD τ).loc main_arg3)) (m ((c : Thread nD τ).loc main_arg4)) := by
  refine (W6_arr m ρ c 2).trans ?_
  rw [Cert.KernelIdeal.Agg.final (V5 m ρ) c]
  have e50 : V5 m ρ c main_v50 = _ := between_v50 (W2 m ρ c)
  have e1 : V5 m ρ c main_v1 = _ := between_v1 (W2 m ρ c)
  rw [e50, e1, W2_v1, W2_arg1, W2_arg2, W2_arg4]
  rfl

/-- The kernel program's run: the result is `outK` of the launch arguments, which end as launched. -/
theorem run : θ_run (defs (F := Ideal)) (onTc (τ := τ) (main (F := Ideal))) ⟨m, fun _ => 0, ρ⟩ (fun r => ∀ c : Dev nD,
      r.2.mem ((c.tc : Thread nD τ).loc main_v51)
        = outK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨(h c).1.trans (W6_v51 m ρ c), (h c).2⟩)
    (Cert.KernelIdeal.KernRun.run_result (F := Ideal) m ρ)

end Cert.KernelIdeal.KernOut

end
-- ==== Proof.RefTerms.lean ====
/-
  The reference computation of the graph-attention layer as pure terms over the extended reals: each definition
  is the composition of the reference program's operations that produce one of its values, written as a function
  of the values it reads. The projection h = x·Wᵀ; the two rows of the edge table as vectors of node numbers, with
  the wrap of a negative number by the node count; the edge score (gather both endpoints' rows of h, append the
  edge attributes, contract with the attention vector, leaky-ReLU with slope 0.2); the dense 8192×8192 score
  matrix (zeros, the scores written at (source, destination)); and the row softmax of that matrix applied to h.
-/
import proofs.«110029_j5119601017281_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The projection h = x·Wᵀ: the weight transposed, then the contraction over the 128 input channels. -/
def hRef (x : FVec Ideal S8192x128 .f32) (W : FVec Ideal S128x128 .f32) : FVec Ideal S8192x128 .f32 :=
  Host.dotGeneral (F := Ideal) dot_S8192x128_S128x128_S8192x128_1_0_0_1_n_n none x
    (transpose S128x128 [1, 0] W transposes_S128x128_S128x128_1_0)

/-- Row 0 of the edge table: each edge's source node. -/
def srcRef (ei : IVec S2x262144 32) : IVec S262144 32 :=
  fun i => shapeCast S262144 (extractStridedSlice S1x262144 ![0, 0] ei slices_S2x262144_S1x262144_0_0)
    shapeCasts_S1x262144_S262144 i

/-- Row 1 of the edge table: each edge's destination node. -/
def dstRef (ei : IVec S2x262144 32) : IVec S262144 32 :=
  fun i => shapeCast S262144 (extractStridedSlice S1x262144 ![1, 0] ei slices_S2x262144_S1x262144_1_0)
    shapeCasts_S1x262144_S262144 i

/-- A node number below zero counts from the end: v + 8192 where v < 0 (signed), v elsewhere. -/
def normIdx (v : IVec S262144 32) : IVec S262144 32 :=
  select (cmpi .slt v (broadcastInDim S262144 ![] bcast_S_S262144 (constantI S_ 32 0#32)))
    (addi v (broadcastInDim S262144 ![] bcast_S_S262144 (constantI S_ 32 8192#32))) v

/-- The node numbers as a one-column index table. -/
def colIdx (v : IVec S262144 32) : IVec S262144x1 32 :=
  broadcastInDim S262144x1 ![0] bcast_S262144_S262144x1_0 (normIdx v)

/-- The rows of h at the given nodes, one per edge. -/
def gathRef (h : FVec Ideal S8192x128 .f32) (v : IVec S262144 32) : FVec Ideal S262144x128 .f32 :=
  Host.gather gather_S8192x128_S262144x1_S262144x128_1_0_n_n_0_1_1128 h (colIdx v)

/-- Per edge: the source's row of h, the destination's row of h, the edge's attributes — 320 numbers. -/
def catRef (h : FVec Ideal S8192x128 .f32) (ei : IVec S2x262144 32) (ea : FVec Ideal S262144x64 .f32) :
    FVec Ideal S262144x320 .f32 :=
  concatenate S262144x320 1 [⟨S262144x128, gathRef h (srcRef ei)⟩, ⟨S262144x128, gathRef h (dstRef ei)⟩, ⟨S262144x64, ea⟩]
    concatenates_S262144x128_S262144x128_S262144x64_S262144x320_d1

/-- The raw score: the 320 numbers of an edge contracted with the attention vector. -/
def preRef (h : FVec Ideal S8192x128 .f32) (ei : IVec S2x262144 32) (ea : FVec Ideal S262144x64 .f32)
    (a : FVec Ideal S1x320 .f32) : FVec Ideal S262144x1 .f32 :=
  Host.dotGeneral (F := Ideal) dot_S262144x320_S320x1_S262144x1_1_0_0_1_n_n none (catRef h ei ea)
    (transpose S320x1 [1, 0] a transposes_S1x320_S320x1_1_0)

/-- Leaky ReLU with slope 0.2: s where s ≥ 0, 0.2·s elsewhere. -/
def leakyRef (s : FVec Ideal S262144x1 .f32) : FVec Ideal S262144x1 .f32 :=
  select (cmpf .oge s (broadcastInDim S262144x1 ![] bcast_S_S262144x1 (constant (F := Ideal) S_ .f32 0x00000000#32))) s
    (mulf (broadcastInDim S262144x1 ![] bcast_S_S262144x1 (id (constant (F := Ideal) S_ .f32 0x3E4CCCCD#32))) s)

/-- The edge scores, as a vector over the edges. -/
def scoreRef (h : FVec Ideal S8192x128 .f32) (ei : IVec S2x262144 32) (ea : FVec Ideal S262144x64 .f32)
    (a : FVec Ideal S1x320 .f32) : FVec Ideal S262144 .f32 :=
  fun i => shapeCast S262144 (leakyRef (preRef h ei ea a)) shapeCasts_S262144x1_S262144 i

/-- The (source, destination) table of the edges. -/
def pairIdx (ei : IVec S2x262144 32) : IVec S262144x2 32 :=
  concatenate S262144x2 1 [⟨S262144x1, colIdx (srcRef ei)⟩, ⟨S262144x1, colIdx (dstRef ei)⟩]
    concatenates_S262144x1_S262144x1_S262144x2_d1

/-- The dense score matrix: zeros, each edge's score written at (source, destination). -/
def attRef (e : FVec Ideal S262144 .f32) (ei : IVec S2x262144 32) : FVec Ideal S8192x8192 .f32 :=
  Host.scatter scatter_S8192x8192_S262144x2_S262144_n_01_01_1 (fun _ b => b)
    (broadcastInDim S8192x8192 ![] bcast_S_S8192x8192 (constant (F := Ideal) S_ .f32 0x00000000#32)) (pairIdx ei) e

/-- The row maxima of A, folded from −∞ and joined once more with −∞. -/
def rowMaxRef (A : FVec Ideal S8192x8192 .f32) : FVec Ideal S8192 .f32 :=
  maximumf (broadcastInDim S8192 ![] bcast_S_S8192 (constant (F := Ideal) S_ .f32 0xFF800000#32))
    (Host.reduce (FloatOps.maximumf (F := Ideal) (φ := .f32)) A (constant (F := Ideal) S_ .f32 0xFF800000#32) reducesTo_S8192x8192_S8192_d1 h_S_)

/-- A vector over the rows spread over the whole matrix: entry (r, j) is the vector's entry r. -/
def spreadRef (v : FVec Ideal S8192 .f32) : FVec Ideal S8192x8192 .f32 :=
  broadcastInDim S8192x8192 ![0, 1] bcast_S8192x1_S8192x8192_0_1 (broadcastInDim S8192x1 ![0] bcast_S8192_S8192x1_0 v)

/-- exp(A(r,j) − m_r). -/
def expRef (A : FVec Ideal S8192x8192 .f32) : FVec Ideal S8192x8192 .f32 :=
  Host.exp (F := Ideal) (subf A (spreadRef (rowMaxRef A)))

/-- The softmax denominators: the row sums of the exponentials, from 0. -/
def denRef (A : FVec Ideal S8192x8192 .f32) : FVec Ideal S8192 .f32 :=
  Host.reduceAdd (F := Ideal) (expRef A) (constant (F := Ideal) S_ .f32 0x00000000#32) reducesTo_S8192x8192_S8192_d1 h_S_

/-- The softmax of every row of A applied to h: (exp / row sum) · h. -/
def softAggRef (A : FVec Ideal S8192x8192 .f32) (h : FVec Ideal S8192x128 .f32) : FVec Ideal S8192x128 .f32 :=
  Host.dotGeneral (F := Ideal) dot_S8192x8192_S8192x128_S8192x128_1_0_0_1_n_n none
    (Host.divf (F := Ideal) (expRef A) (spreadRef (denRef A))) h

/-- The reference's result as a function of its five arguments. -/
def outRef (x : FVec Ideal S8192x128 .f32) (ei : IVec S2x262144 32) (ea : FVec Ideal S262144x64 .f32)
    (W : FVec Ideal S128x128 .f32) (a : FVec Ideal S1x320 .f32) : FVec Ideal S8192x128 .f32 :=
  softAggRef (attRef (scoreRef (hRef x W) ei ea a) ei) (hRef x W)

end Cert.ReferenceIdeal.RefValue

end
-- ==== Proof.RefRun.lean ====
/-
  The reference program's run, read back: @main is a straight line of host operations (the outlined leaky-ReLU's
  seven operations taken at the place of its call, over that call's own buffers), so every weakly fair execution
  terminates with each buffer at the composition of the operations that produce it, applied to the arguments'
  contents at launch, and with the arguments unchanged. The result buffer's composition is `outRef`.
-/
import proofs.«110029_j5119601017281_2_alg».proof.Proof.RefTerms
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 71 operations, in order: the projection; the two endpoint vectors and their wrapped forms; the two gathers,
    the 320-wide rows and the raw score; the leaky-ReLU's seven operations over its call's buffers; the dense score
    matrix; the row maxima, the exponentials, the row sums, the division and the product with the projection. -/
abbrev ops : List (HloOp τ sig (Elt F)) :=
  [ unary main_arg3 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg1 main_v2 ((extractStridedSlice S1x262144 ![0, 0] · slices_S2x262144_S1x262144_0_0) : (⟨S2x262144, .i32⟩ : BufTy).Contents (Elt F) → (⟨S1x262144, .i32⟩ : BufTy).Contents (Elt F)),
    reshape main_v2 main_v3 rfl shapeCasts_S1x262144_S262144,
    unary main_arg1 main_v4 ((extractStridedSlice S1x262144 ![1, 0] · slices_S2x262144_S1x262144_1_0) : (⟨S2x262144, .i32⟩ : BufTy).Contents (Elt F) → (⟨S1x262144, .i32⟩ : BufTy).Contents (Elt F)),
    reshape main_v4 main_v5 rfl shapeCasts_S1x262144_S262144,
    nullary main_c (constantI S_ 32 0#32),
    unary main_c main_v6 (broadcastInDim S262144 ![] bcast_S_S262144 : (⟨S_, .i32⟩ : BufTy).Contents (Elt F) → (⟨S262144, .i32⟩ : BufTy).Contents (Elt F)),
    binary main_v3 main_v6 main_v7 (cmpi .slt : (⟨S262144, .i32⟩ : BufTy).Contents (Elt F) → (⟨S262144, .i32⟩ : BufTy).Contents (Elt F) → (⟨S262144, .i1⟩ : BufTy).Contents (Elt F)),
    nullary main_c_0 (constantI S_ 32 8192#32),
    unary main_c_0 main_v8 (broadcastInDim S262144 ![] bcast_S_S262144 : (⟨S_, .i32⟩ : BufTy).Contents (Elt F) → (⟨S262144, .i32⟩ : BufTy).Contents (Elt F)),
    binary main_v3 main_v8 main_v9 (addi : (⟨S262144, .i32⟩ : BufTy).Contents (Elt F) → (⟨S262144, .i32⟩ : BufTy).Contents (Elt F) → (⟨S262144, .i32⟩ : BufTy).Contents (Elt F)),
    ternary main_v7 main_v9 main_v3 main_v10 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v10 main_v11 (broadcastInDim S262144x1 ![0] bcast_S262144_S262144x1_0 : (⟨S262144, .i32⟩ : BufTy).Contents (Elt F) → (⟨S262144x1, .i32⟩ : BufTy).Contents (Elt F)),
    binary main_v1 main_v11 main_v12 ((fun x i => Host.gather gather_S8192x128_S262144x1_S262144x128_1_0_n_n_0_1_1128 x i) : (⟨S8192x128, .f32⟩ : BufTy).Contents (Elt F) → (⟨S262144x1, .i32⟩ : BufTy).Contents (Elt F) → (⟨S262144x128, .f32⟩ : BufTy).Contents (Elt F)),
    nullary main_c_1 (constantI S_ 32 0#32),
    unary main_c_1 main_v13 (broadcastInDim S262144 ![] bcast_S_S262144 : (⟨S_, .i32⟩ : BufTy).Contents (Elt F) → (⟨S262144, .i32⟩ : BufTy).Contents (Elt F)),
    binary main_v5 main_v13 main_v14 (cmpi .slt : (⟨S262144, .i32⟩ : BufTy).Contents (Elt F) → (⟨S262144, .i32⟩ : BufTy).Contents (Elt F) → (⟨S262144, .i1⟩ : BufTy).Contents (Elt F)),
    nullary main_c_2 (constantI S_ 32 8192#32),
    unary main_c_2 main_v15 (broadcastInDim S262144 ![] bcast_S_S262144 : (⟨S_, .i32⟩ : BufTy).Contents (Elt F) → (⟨S262144, .i32⟩ : BufTy).Contents (Elt F)),
    binary main_v5 main_v15 main_v16 (addi : (⟨S262144, .i32⟩ : BufTy).Contents (Elt F) → (⟨S262144, .i32⟩ : BufTy).Contents (Elt F) → (⟨S262144, .i32⟩ : BufTy).Contents (Elt F)),
    ternary main_v14 main_v16 main_v5 main_v17 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v17 main_v18 (broadcastInDim S262144x1 ![0] bcast_S262144_S262144x1_0 : (⟨S262144, .i32⟩ : BufTy).Contents (Elt F) → (⟨S262144x1, .i32⟩ : BufTy).Contents (Elt F)),
    binary main_v1 main_v18 main_v19 ((fun x i => Host.gather gather_S8192x128_S262144x1_S262144x128_1_0_n_n_0_1_1128 x i) : (⟨S8192x128, .f32⟩ : BufTy).Contents (Elt F) → (⟨S262144x1, .i32⟩ : BufTy).Contents (Elt F) → (⟨S262144x128, .f32⟩ : BufTy).Contents (Elt F)),
    nary ![main_v12, main_v19, main_arg2] main_v20 (fun u => concatenate S262144x320 1 [⟨S262144x128, u 0⟩, ⟨S262144x128, u 1⟩, ⟨S262144x64, u 2⟩] concatenates_S262144x128_S262144x128_S262144x64_S262144x320_d1),
    unary main_arg4 main_v21 ((transpose S320x1 [1, 0] · transposes_S1x320_S320x1_1_0) : (⟨S1x320, .f32⟩ : BufTy).Contents (Elt F) → (⟨S320x1, .f32⟩ : BufTy).Contents (Elt F)),
    binary main_v20 main_v21 main_v22 ((fun l r => Host.dotGeneral dot_S262144x320_S320x1_S262144x1_1_0_0_1_n_n none l r) : (⟨S262144x320, .f32⟩ : BufTy).Contents (Elt F) → (⟨S320x1, .f32⟩ : BufTy).Contents (Elt F) → (⟨S262144x1, .f32⟩ : BufTy).Contents (Elt F)),
    nullary main_cst (constant S_ .f32 0x3E4CCCCD#32),
    TRef.nullary main_call0.cst (constant S_ .f32 0x00000000#32),
    TRef.unary main_call0.cst main_call0.v0 (broadcastInDim S262144x1 ![] bcast_S_S262144x1),
    TRef.binary (.of main_v22) main_call0.v0 main_call0.v1 (cmpf .oge),
    TRef.unary (.of main_cst) main_call0.v2 id,
    TRef.unary main_call0.v2 main_call0.v3 (broadcastInDim S262144x1 ![] bcast_S_S262144x1),
    TRef.binary main_call0.v3 (.of main_v22) main_call0.v4 mulf,
    TRef.ternary main_call0.v1 (.of main_v22) main_call0.v4 main_call0.call0.v0 select,
    reshape main_v23 main_v24 rfl shapeCasts_S262144x1_S262144,
    nullary main_cst_3 (constant S_ .f32 0x00000000#32),
    unary main_cst_3 main_v25 (broadcastInDim S8192x8192 ![] bcast_S_S8192x8192 : (⟨S_, .f32⟩ : BufTy).Contents (Elt F) → (⟨S8192x8192, .f32⟩ : BufTy).Contents (Elt F)),
    nullary main_c_4 (constantI S_ 32 0#32),
    unary main_c_4 main_v26 (broadcastInDim S262144 ![] bcast_S_S262144 : (⟨S_, .i32⟩ : BufTy).Contents (Elt F) → (⟨S262144, .i32⟩ : BufTy).Contents (Elt F)),
    binary main_v3 main_v26 main_v27 (cmpi .slt : (⟨S262144, .i32⟩ : BufTy).Contents (Elt F) → (⟨S262144, .i32⟩ : BufTy).Contents (Elt F) → (⟨S262144, .i1⟩ : BufTy).Contents (Elt F)),
    nullary main_c_5 (constantI S_ 32 8192#32),
    unary main_c_5 main_v28 (broadcastInDim S262144 ![] bcast_S_S262144 : (⟨S_, .i32⟩ : BufTy).Contents (Elt F) → (⟨S262144, .i32⟩ : BufTy).Contents (Elt F)),
    binary main_v3 main_v28 main_v29 (addi : (⟨S262144, .i32⟩ : BufTy).Contents (Elt F) → (⟨S262144, .i32⟩ : BufTy).Contents (Elt F) → (⟨S262144, .i32⟩ : BufTy).Contents (Elt F)),
    ternary main_v27 main_v29 main_v3 main_v30 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_6 (constantI S_ 32 0#32),
    unary main_c_6 main_v31 (broadcastInDim S262144 ![] bcast_S_S262144 : (⟨S_, .i32⟩ : BufTy).Contents (Elt F) → (⟨S262144, .i32⟩ : BufTy).Contents (Elt F)),
    binary main_v5 main_v31 main_v32 (cmpi .slt : (⟨S262144, .i32⟩ : BufTy).Contents (Elt F) → (⟨S262144, .i32⟩ : BufTy).Contents (Elt F) → (⟨S262144, .i1⟩ : BufTy).Contents (Elt F)),
    nullary main_c_7 (constantI S_ 32 8192#32),
    unary main_c_7 main_v33 (broadcastInDim S262144 ![] bcast_S_S262144 : (⟨S_, .i32⟩ : BufTy).Contents (Elt F) → (⟨S262144, .i32⟩ : BufTy).Contents (Elt F)),
    binary main_v5 main_v33 main_v34 (addi : (⟨S262144, .i32⟩ : BufTy).Contents (Elt F) → (⟨S262144, .i32⟩ : BufTy).Contents (Elt F) → (⟨S262144, .i32⟩ : BufTy).Contents (Elt F)),
    ternary main_v32 main_v34 main_v5 main_v35 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v30 main_v36 (broadcastInDim S262144x1 ![0] bcast_S262144_S262144x1_0 : (⟨S262144, .i32⟩ : BufTy).Contents (Elt F) → (⟨S262144x1, .i32⟩ : BufTy).Contents (Elt F)),
    unary main_v35 main_v37 (broadcastInDim S262144x1 ![0] bcast_S262144_S262144x1_0 : (⟨S262144, .i32⟩ : BufTy).Contents (Elt F) → (⟨S262144x1, .i32⟩ : BufTy).Contents (Elt F)),
    binary main_v36 main_v37 main_v38 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v25 main_v38 main_v24 main_v39 ((fun x i u => Host.scatter scatter_S8192x8192_S262144x2_S262144_n_01_01_1 (fun _ b => b) x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)),
    nullary main_cst_8 (constant S_ .f32 0xFF800000#32),
    binary main_v39 main_cst_8 main_v40 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_9 (constant S_ .f32 0xFF800000#32),
    unary main_cst_9 main_v41 (broadcastInDim S8192 ![] bcast_S_S8192 : (⟨S_, .f32⟩ : BufTy).Contents (Elt F) → (⟨S8192, .f32⟩ : BufTy).Contents (Elt F)),
    binary main_v41 main_v40 main_v42 (maximumf : (⟨S8192, .f32⟩ : BufTy).Contents (Elt F) → (⟨S8192, .f32⟩ : BufTy).Contents (Elt F) → (⟨S8192, .f32⟩ : BufTy).Contents (Elt F)),
    unary main_v42 main_v43 (broadcastInDim S8192x1 ![0] bcast_S8192_S8192x1_0 : (⟨S8192, .f32⟩ : BufTy).Contents (Elt F) → (⟨S8192x1, .f32⟩ : BufTy).Contents (Elt F)),
    unary main_v43 main_v44 (broadcastInDim S8192x8192 ![0, 1] bcast_S8192x1_S8192x8192_0_1 : (⟨S8192x1, .f32⟩ : BufTy).Contents (Elt F) → (⟨S8192x8192, .f32⟩ : BufTy).Contents (Elt F)),
    binary main_v39 main_v44 main_v45 (subf : (⟨S8192x8192, .f32⟩ : BufTy).Contents (Elt F) → (⟨S8192x8192, .f32⟩ : BufTy).Contents (Elt F) → (⟨S8192x8192, .f32⟩ : BufTy).Contents (Elt F)),
    unary main_v45 main_v46 (Host.exp : (⟨S8192x8192, .f32⟩ : BufTy).Contents (Elt F) → (⟨S8192x8192, .f32⟩ : BufTy).Contents (Elt F)),
    nullary main_cst_10 (constant S_ .f32 0x00000000#32),
    binary main_v46 main_cst_10 main_v47 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v47 main_v48 (broadcastInDim S8192x1 ![0] bcast_S8192_S8192x1_0 : (⟨S8192, .f32⟩ : BufTy).Contents (Elt F) → (⟨S8192x1, .f32⟩ : BufTy).Contents (Elt F)),
    unary main_v48 main_v49 (broadcastInDim S8192x8192 ![0, 1] bcast_S8192x1_S8192x8192_0_1 : (⟨S8192x1, .f32⟩ : BufTy).Contents (Elt F) → (⟨S8192x8192, .f32⟩ : BufTy).Contents (Elt F)),
    binary main_v46 main_v49 main_v50 (Host.divf : (⟨S8192x8192, .f32⟩ : BufTy).Contents (Elt F) → (⟨S8192x8192, .f32⟩ : BufTy).Contents (Elt F) → (⟨S8192x8192, .f32⟩ : BufTy).Contents (Elt F)),
    binary main_v50 main_v1 main_v51 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]

-- the two windows and the outlined functions' bodies unfold to one chain of steps: one level of recursion per statement
set_option maxRecDepth 8192 in
/-- @main is that line: sequencing a step with what follows it is the step continued by it, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., reshape_bufs_sub ..,
    nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., binary_bufs_sub ..⟩

/-- A three-operand concatenation's result with each operand's contents at its own reference. -/
theorem nary3_result' {x a b y : Ref sig .tc} {Val : EltTy → Type}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- What one buffer holds after the line, as one rewriting pass: each operation's result at its own buffer is its
    function of its operands' contents, at any other buffer what was there. -/
macro "line_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

theorem arg0_eq (V : Valuation τ sig (Elt F)) : after ops V (Proc.devRef .tc main_arg0) = V (Proc.devRef .tc main_arg0) := by line_results
theorem arg1_eq (V : Valuation τ sig (Elt F)) : after ops V (Proc.devRef .tc main_arg1) = V (Proc.devRef .tc main_arg1) := by line_results
theorem arg2_eq (V : Valuation τ sig (Elt F)) : after ops V (Proc.devRef .tc main_arg2) = V (Proc.devRef .tc main_arg2) := by line_results
theorem arg3_eq (V : Valuation τ sig (Elt F)) : after ops V (Proc.devRef .tc main_arg3) = V (Proc.devRef .tc main_arg3) := by line_results
theorem arg4_eq (V : Valuation τ sig (Elt F)) : after ops V (Proc.devRef .tc main_arg4) = V (Proc.devRef .tc main_arg4) := by line_results

set_option maxHeartbeats 4000000 in
set_option maxRecDepth 8192 in
/-- The result buffer after the line: the operations' composition, which is `outRef` by unfolding its definition. -/
theorem out_eq (V : Valuation τ sig (Elt Ideal)) :
    after ops V (Proc.devRef .tc main_v51)
      = outRef (V (Proc.devRef .tc main_arg0)) (V (Proc.devRef .tc main_arg1)) (V (Proc.devRef .tc main_arg2))
          (V (Proc.devRef .tc main_arg3)) (V (Proc.devRef .tc main_arg4)) := by
  line_results
  rfl

/-- On the device, from any memory with zero counters: every weakly fair execution of the reference terminates with
    its result buffer at `outRef` of the five arguments' contents at launch, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51)
          = outRef (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v51).trans (out_eq _),
      (h c main_arg0).trans (arg0_eq _), (h c main_arg1).trans (arg1_eq _),
      (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefValue

end
-- ==== Proof.LibRealValued.lean ====
/-
  Real-valued extended reals. A quantity is real-valued when it is the image of a real number, that is,
  neither of the two infinities. The arithmetic of the extended reals restricted to real-valued
  quantities is the arithmetic of the real numbers, and the exponential and the division by a nonzero
  real keep a real-valued argument real-valued.
-/
import Mathlib
import Idealize.ShloMosaic.PureOps.Ideal
import Idealize.ShloMosaic.PureOps.Ideal.Laws

namespace Cert.RealValued

open Idealize.ShloMosaic

/-- An extended real is real-valued when it is (the image of) a real number. -/
def IsReal (x : EReal) : Prop := ∃ r : ℝ, x = (r : EReal)

/-- The image of a real number is real-valued. -/
theorem IsReal.coe (r : ℝ) : IsReal (r : EReal) := ⟨r, rfl⟩

/-- Zero is real-valued. -/
theorem IsReal.zero : IsReal (0 : EReal) := ⟨0, EReal.coe_zero.symm⟩

/-- One is real-valued. -/
theorem IsReal.one : IsReal (1 : EReal) := ⟨1, EReal.coe_one.symm⟩

/-- A real-valued quantity is neither infinity. -/
theorem IsReal.ne_top {x : EReal} (hx : IsReal x) : x ≠ ⊤ := by
  obtain ⟨a, rfl⟩ := hx; exact EReal.coe_ne_top a

/-- A real-valued quantity is neither infinity. -/
theorem IsReal.ne_bot {x : EReal} (hx : IsReal x) : x ≠ ⊥ := by
  obtain ⟨a, rfl⟩ := hx; exact EReal.coe_ne_bot a

/-- The sum of two real-valued quantities is real-valued. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real-valued quantities is real-valued. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real-valued quantities is real-valued. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real-valued quantity is real-valued. -/
theorem IsReal.neg {x : EReal} (hx : IsReal x) : IsReal (-x) := by
  obtain ⟨a, rfl⟩ := hx
  exact ⟨-a, (EReal.coe_neg a).symm⟩

/-- The maximum of two real numbers, taken in the extended reals, is the image of their maximum. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The maximum of two real-valued quantities is real-valued. -/
theorem IsReal.max {x y : EReal} (hx : IsReal x) (hy : IsReal y) : IsReal (max x y) := by
  obtain ⟨a, rfl⟩ := hx; obtain ⟨b, rfl⟩ := hy
  exact ⟨Max.max a b, coe_max a b⟩

/-- A finite sum of real-valued quantities is real-valued. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The exponential of a real-valued quantity is a positive real number. -/
theorem exp_coe_pos (r : ℝ) : ∃ e : ℝ, 0 < e ∧ Ideal.exp (r : EReal) = (e : EReal) :=
  ⟨Real.exp r, Real.exp_pos r, Ideal.exp_coe r⟩

/-- The exponential of a real-valued quantity is real-valued. -/
theorem isReal_exp {x : EReal} (h : IsReal x) : IsReal (Ideal.exp x) := by
  obtain ⟨a, rfl⟩ := h
  exact ⟨Real.exp a, Ideal.exp_coe a⟩

/-- A real-valued quantity divided by a nonzero real number is real-valued. -/
theorem isReal_div_coe {x : EReal} (h : IsReal x) {y : ℝ} (hy : y ≠ 0) :
    IsReal (Ideal.div x (y : EReal)) := by
  rw [Ideal.div_coe hy x]
  exact h.mul (IsReal.coe _)

end Cert.RealValued
-- ==== Proof.AggLaw.lean ====
/-
  The two arrangements of the softmax aggregation agree on real-valued data.

  For a row r of the attention matrix A let m be its largest entry, p(j) = exp(A(r,j) − m) and l = Σ_j p(j). When every
  entry of A is a real number, m is one of them (the maximum of a nonempty finite family is attained), so every p(j) is
  a positive real and l is a positive real, in particular nonzero. Dividing by a nonzero real is multiplying by its
  inverse, and on real numbers (Σ_j p(j)·h(j,c)) · l⁻¹ = Σ_j (p(j)·l⁻¹)·h(j,c) by distributivity; the real-valued
  entries of h make every term a real number, so the identity transfers to the extended reals. (With an infinite
  entry the two sides may differ: distributivity fails at infinities.)

  Also: the projection of real-valued features by a real-valued weight is real-valued.
-/
import proofs.«110029_j5119601017281_2_alg».proof.Proof.Spec
import proofs.«110029_j5119601017281_2_alg».proof.Proof.LibRealValued

noncomputable section

open scoped BigOperators

namespace Cert.Gat

open Idealize.ShloMosaic Idealize.ShloMosaic.ValueIdx Cert.RealValued

/-- The float pattern of −∞ denotes the bottom of the extended reals. -/
theorem negInf_eq_bot : Ideal.ofBits .f32 0xFF800000#32 = (⊥ : EReal) := by
  simp [Ideal.ofBits, Ideal.ieee]

/-- The maximum, folded from −∞, of a nonempty finite family of real-valued quantities is real-valued. -/
theorem isReal_fold_max {ι : Type*} (s : Finset ι) (hs : s.Nonempty) (f : ι → EReal) (hf : ∀ i, IsReal (f i)) :
    IsReal (s.fold max (⊥ : EReal) f) := by
  induction hs using Finset.Nonempty.cons_induction with
  | singleton a => rw [Finset.fold_singleton, max_bot_right]; exact hf a
  | cons a s ha hs ih => rw [Finset.fold_cons]; exact (hf a).max ih

/-- The largest entry of a row of a real-valued matrix is real-valued. -/
theorem isReal_rowMax (A : SNN.Idx → EReal) (hA : ∀ i, IsReal (A i)) (r : Fin 8192) : IsReal (rowMax A r) := by
  unfold rowMax
  rw [negInf_eq_bot]
  exact isReal_fold_max Finset.univ Finset.univ_nonempty _ fun j => hA (ix2 r j)

/-- Every unnormalised softmax weight of a real-valued matrix is a positive real number. -/
theorem weight_pos (A : SNN.Idx → EReal) (hA : ∀ i, IsReal (A i)) (r j : Fin 8192) :
    ∃ e : ℝ, 0 < e ∧ weight A r j = (e : EReal) := by
  obtain ⟨a, ha⟩ := (hA (ix2 r j)).sub (isReal_rowMax A hA r)
  unfold weight
  rw [ha]
  exact exp_coe_pos a

/-- One division after the sum equals normalising the weights before it, when the attention matrix and the projected
    features are real-valued. -/
theorem aggDivAfter_eq_aggDivBefore (A : SNN.Idx → EReal) (h : SNF.Idx → EReal) (hA : ∀ i, IsReal (A i))
    (hh : ∀ i, IsReal (h i)) : aggDivAfter A h = aggDivBefore A h := by
  funext i
  choose p hp0 hp using fun j : Fin 8192 => weight_pos A hA (i 0) j
  choose hv hhv using fun j : Fin 8192 => (hh (ix2 j (i 1)) : ∃ v : ℝ, h (ix2 j (i 1)) = (v : EReal))
  have hden : rowDen A (i 0) = ((∑ j, p j : ℝ) : EReal) := by
    unfold rowDen
    rw [coe_sum]
    exact Finset.sum_congr rfl fun j _ => hp j
  have hL : (∑ j, p j : ℝ) ≠ 0 := ne_of_gt (Finset.sum_pos (fun j _ => hp0 j) Finset.univ_nonempty)
  show Ideal.div (∑ j : Fin 8192, weight A (i 0) j * h (ix2 j (i 1))) (rowDen A (i 0))
      = ∑ j : Fin 8192, Ideal.div (weight A (i 0) j) (rowDen A (i 0)) * h (ix2 j (i 1))
  rw [hden, Ideal.div_coe hL]
  have e1 : (∑ j : Fin 8192, weight A (i 0) j * h (ix2 j (i 1))) = ((∑ j, p j * hv j : ℝ) : EReal) := by
    rw [coe_sum]
    exact Finset.sum_congr rfl fun j _ => by rw [hp j, hhv j, EReal.coe_mul]
  have e2 : (∑ j : Fin 8192, Ideal.div (weight A (i 0) j) ((∑ j, p j : ℝ) : EReal) * h (ix2 j (i 1)))
      = ((∑ j, p j * (1 / ∑ j, p j) * hv j : ℝ) : EReal) := by
    refine Eq.trans (Finset.sum_congr rfl fun j _ => ?_)
      (coe_sum Finset.univ fun j => p j * (1 / ∑ j, p j) * hv j).symm
    rw [Ideal.div_coe hL, hp j, hhv j, EReal.coe_mul, EReal.coe_mul]
  rw [e1, e2, ← EReal.coe_mul, Finset.sum_mul]
  exact congrArg _ (Finset.sum_congr rfl fun j _ => by ring)

/-- The projection of real-valued features by a real-valued weight is real-valued. -/
theorem isReal_proj (x : SNF.Idx → EReal) (W : SWW.Idx → EReal) (hx : ∀ i, IsReal (x i)) (hW : ∀ i, IsReal (W i)) :
    ∀ i, IsReal (proj x W i) := fun i =>
  IsReal.sum _ _ fun k _ => (hx _).mul (hW _)

end Cert.Gat

end
-- ==== Proof.LibScatterAll.lean ====
/-
  A property of every element survives a replacing scatter.

  The host's scatter whose body returns the update ("set") is a left fold over the update's elements: each step either
  leaves the array as it is (the update's target lies outside the array) or replaces the one element at the target by the
  update's element. If a property holds of every element of the operand and of every element of the update, it holds of
  every element after each step, hence of every element of the result — whatever the indices are, repeated or not.
-/
import Idealize.ShloMosaic.PureOps.ShapeOps

namespace Cert.LibScatterAll

open Idealize.ShloMosaic

/-- Every element of a replacing scatter's result has a property that every element of the operand and every element
    of the update has. -/
theorem scatter_set_all {α : Type} {s si u : Shape} {w : Nat} (P : α → Prop) (d : ScatterDims s si u)
    (x : s.Idx → α) (idx : IVec si w) (upd : u.Idx → α) (hx : ∀ i, P (x i)) (hu : ∀ j, P (upd j)) :
    ∀ i, P (Host.scatter d (fun _ b => b) x idx upd i) := by
  unfold Host.scatter
  generalize List.finRange u.numel = l
  induction l generalizing x with
  | nil => exact hx
  | cons n l ih =>
    rw [List.foldl_cons]
    refine ih _ ?_
    intro i'
    cases d.resultIdx? (u.rowMajor.symm n) idx with
    | none => exact hx i'
    | some i =>
      show P (if i' = i then upd (u.rowMajor.symm n) else x i')
      split
      · exact hu _
      · exact hx i'

end Cert.LibScatterAll
-- ==== Proof.RefBridge.lean ====
/-
  The reference's terms are the specification's functions.

  Index by index: the reference's projection contracts x with the transposed weight, which at (k, c) reads W(c, k), so
  its entry (r, c) is Σ_k x(r,k)·W(c,k). Its row maximum is the fold of max over the row from −∞, joined once more with
  −∞, which changes nothing since −∞ is below the fold. A vector over the rows spread over the matrix reads, at (r, j),
  the vector's entry r. So the exponentials are the specification's weights, their row sums from 0 the specification's
  denominators, and the final contraction of (weight / denominator) with h is the aggregation with the weights
  normalised before the sum.
-/
import proofs.«110029_j5119601017281_2_alg».proof.Proof.RefTerms
import proofs.«110029_j5119601017281_2_alg».proof.Proof.Spec
import proofs.«110029_j5119601017281_2_alg».proof.Proof.LibPlainDot
import proofs.«110029_j5119601017281_2_alg».proof.Proof.LibAxisFold
import Idealize.ShloMosaic.Lib.Pipeline.Value
import Idealize.ShloMosaic.Lib.ValueLayout
import Idealize.ShloMosaic.PureOps.Ideal.Laws

noncomputable section

open scoped BigOperators

namespace Cert.ReferenceIdeal.RefBridge

open Cert.ReferenceIdeal Cert.ReferenceIdeal.Gen Idealize.ShloMosaic Idealize.ShloMosaic.ValueIdx

/-- The projection's contraction record is the plain 8192×128 by 128×128 product. -/
theorem dotProj_eq_plain : dot_S8192x128_S128x128_S8192x128_1_0_0_1_n_n = DotDims.plain 8192 128 128 := rfl

/-- The aggregation's contraction record is the plain 8192×8192 by 8192×128 product. -/
theorem dotAgg_eq_plain : dot_S8192x8192_S8192x128_S8192x128_1_0_0_1_n_n = DotDims.plain 8192 8192 128 := rfl

/-- The reference's projection is h = x·Wᵀ. -/
theorem hRef_eq (x : FVec Ideal S8192x128 .f32) (W : FVec Ideal S128x128 .f32) :
    RefValue.hRef x W = Cert.Gat.proj x W := by
  funext i
  obtain ⟨r, c, rfl⟩ : ∃ (r : Fin 8192) (c : Fin 128), i = ix2 r c := ⟨i 0, i 1, eq_ix2 i⟩
  unfold RefValue.hRef Cert.Gat.proj
  show FloatOps.dotGeneral dot_S8192x128_S128x128_S8192x128_1_0_0_1_n_n none .single x
      (transpose S128x128 [1, 0] W transposes_S128x128_S128x128_1_0) (ix2 r c) = _
  rw [dotProj_eq_plain]
  refine (PlainDot.dotGeneral_apply none .single x _ r c).trans ?_
  exact Finset.sum_congr rfl fun k _ => congrArg (x (ix2 r k) * ·) (transpose_ix2_apply W _ k c)

/-- The reference's row maximum at row r is the largest entry of the row, folded from −∞. -/
theorem rowMaxRef_apply (A : FVec Ideal S8192x8192 .f32) (r : Fin 8192) :
    RefValue.rowMaxRef A (ix1 r) = Cert.Gat.rowMax A r := by
  have hred : S8192x8192.Reduces [1] S8192 := by decide
  have e : Host.reduce (FloatOps.maximumf (F := Ideal) (φ := .f32)) A (constant (F := Ideal) S_ .f32 0xFF800000#32)
        reducesTo_S8192x8192_S8192_d1 h_S_ (ix1 r)
      = (Finset.univ : Finset (Fin 8192)).fold max (Ideal.ofBits .f32 0xFF800000#32) (fun j => A (ix2 r j)) := by
    refine (Host.reduce_eq_fold_single _ A _ reducesTo_S8192x8192_S8192_d1 hred h_S_ (ix1 r)).trans ?_
    have e' : (A ∘ hred.lift (ix1 r)) = fun k : Fin 8192 => A (ix2 r k) :=
      funext fun k => congrArg A (AxisFold.lift_second hred r k)
    rw [e']
    rfl
  unfold RefValue.rowMaxRef Cert.Gat.rowMax
  rw [maximumf_apply, e]
  show max (Ideal.ofBits .f32 0xFF800000#32) _ = _
  exact max_eq_right ((Finset.le_fold_max _).2 (Or.inl le_rfl))

/-- A vector over the rows spread over the matrix reads, at (r, j), the vector's entry r. -/
theorem spreadRef_apply (v : FVec Ideal S8192 .f32) (r j : Fin 8192) : RefValue.spreadRef v (ix2 r j) = v (ix1 r) := by
  unfold RefValue.spreadRef
  refine (broadcastInDim_apply _ _ _ (ix2 r j) (ix2 r (0 : Fin 1)) fun a => ?_).trans ?_
  · match a with
    | ⟨0, _⟩ => rfl
    | ⟨1, _⟩ => rfl
  · refine broadcastInDim_apply _ _ _ (ix2 r (0 : Fin 1)) (ix1 r) fun a => ?_
    match a with
    | ⟨0, _⟩ => rfl

/-- The reference's exponential at (r, j) is the unnormalised softmax weight. -/
theorem expRef_apply (A : FVec Ideal S8192x8192 .f32) (r j : Fin 8192) :
    RefValue.expRef A (ix2 r j) = Cert.Gat.weight A r j := by
  unfold RefValue.expRef Cert.Gat.weight
  show Ideal.exp (A (ix2 r j) - RefValue.spreadRef (RefValue.rowMaxRef A) (ix2 r j)) = _
  rw [spreadRef_apply, rowMaxRef_apply]

/-- The reference's row sum of the exponentials at row r is the softmax denominator. -/
theorem denRef_apply (A : FVec Ideal S8192x8192 .f32) (r : Fin 8192) :
    RefValue.denRef A (ix1 r) = Cert.Gat.rowDen A r := by
  have hred : S8192x8192.Reduces [1] S8192 := by decide
  unfold RefValue.denRef Cert.Gat.rowDen
  show Ideal.hostReduceAdd reducesTo_S8192x8192_S8192_d1 (RefValue.expRef A) (Ideal.ofBits .f32 0x00000000#32) (ix1 r) = _
  refine (Ideal.hostReduceAdd_single reducesTo_S8192x8192_S8192_d1 hred (RefValue.expRef A) _ (ix1 r)).trans ?_
  rw [Ideal.ofBits_zero_f32, zero_add]
  exact Finset.sum_congr rfl fun k _ =>
    (congrArg (RefValue.expRef A) (AxisFold.lift_second hred r k)).trans (expRef_apply A r k)

/-- The reference's softmax aggregation is the aggregation with the weights normalised before the sum. -/
theorem softAggRef_eq (A : FVec Ideal S8192x8192 .f32) (h : FVec Ideal S8192x128 .f32) :
    RefValue.softAggRef A h = Cert.Gat.aggDivBefore A h := by
  funext i
  obtain ⟨r, c, rfl⟩ : ∃ (r : Fin 8192) (c : Fin 128), i = ix2 r c := ⟨i 0, i 1, eq_ix2 i⟩
  unfold RefValue.softAggRef Cert.Gat.aggDivBefore
  show FloatOps.dotGeneral dot_S8192x8192_S8192x128_S8192x128_1_0_0_1_n_n none .single
      (Host.divf (F := Ideal) (RefValue.expRef A) (RefValue.spreadRef (RefValue.denRef A))) h (ix2 r c) = _
  rw [dotAgg_eq_plain]
  refine (PlainDot.dotGeneral_apply none .single _ h r c).trans ?_
  refine Finset.sum_congr rfl fun j _ => ?_
  show Ideal.div (RefValue.expRef A (ix2 r j)) (RefValue.spreadRef (RefValue.denRef A) (ix2 r j)) * h (ix2 j c) = _
  rw [expRef_apply, spreadRef_apply, denRef_apply]

end Cert.ReferenceIdeal.RefBridge

end
-- ==== Proof.EdgeIdx.lean ====
/-
  Reading the two programs' gathers and the three-piece concatenation at an index.

  Both gathers read, for edge e, the start index idx(e, 0) as a signed integer and clamp it into 0 … 8191: the kernel
  program's picks one scalar out of a length-8192 vector, the reference's picks a whole 128-entry row of the
  8192×128 array. The clamp is one function of the index word, so that the two sides meet.

  The concatenation [E,128] ++ [E,128] ++ [E,64] along the second axis reads, at column k, the first piece for
  k < 128, the second at k − 128 for 128 ≤ k < 256, the third at k − 256 for 256 ≤ k < 320.
-/
import proofs.«110029_j5119601017281_2_alg».proof.Proof.Gen.KernelIdeal
import proofs.«110029_j5119601017281_2_alg».proof.Proof.Gen.ReferenceIdeal
import Idealize.ShloMosaic.Lib.Pipeline.Value
import Idealize.ShloMosaic.Lib.ValueIdx

noncomputable section

namespace Cert.EdgeIdx

open Idealize.ShloMosaic Idealize.ShloMosaic.ValueIdx

variable {α : Type}

/-- A start index word read as a signed integer and clamped into 0 … 8191. -/
def clampNode (w : BitVec 32) : Fin 8192 := ⟨min w.toInt.toNat 8191, by omega⟩

/-- The kernel program's gather at edge e: the vector at the clamped start index. -/
theorem gatherK_apply (x : (⟨1, ![8192]⟩ : Shape).Idx → α) (idx : IVec ⟨2, ![262144, 1]⟩ 32) (e : Fin 262144) :
    Host.gather Cert.KernelIdeal.gather_S8192_S262144x1_S262144_n_0_n_n_0_1_1 x idx (ix1 e)
      = x (ix1 (clampNode (idx (ix2 e (0 : Fin 1))))) := by
  unfold Host.gather
  congr 1
  funext a
  obtain rfl : a = 0 := Subsingleton.elim _ _
  refine Fin.ext ?_
  show Cert.KernelIdeal.gather_S8192_S262144x1_S262144_n_0_n_n_0_1_1.start (ix1 e) idx 0
      + Cert.KernelIdeal.gather_S8192_S262144x1_S262144_n_0_n_n_0_1_1.batchCoord (ix1 e) 0
      + Cert.KernelIdeal.gather_S8192_S262144x1_S262144_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ Cert.KernelIdeal.gather_S8192_S262144x1_S262144_n_0_n_n_0_1_1.startIndexMap from
    List.mem_singleton.mpr rfl)]
  have hsi : Cert.KernelIdeal.gather_S8192_S262144x1_S262144_n_0_n_n_0_1_1.siIdx (ix1 e)
      ⟨List.idxOf (0 : Fin 1) Cert.KernelIdeal.gather_S8192_S262144x1_S262144_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The reference's gather at edge e and column c: the array at (clamped start index, c). -/
theorem gatherR_apply (x : (⟨2, ![8192, 128]⟩ : Shape).Idx → α) (idx : IVec ⟨2, ![262144, 1]⟩ 32) (e : Fin 262144)
    (c : Fin 128) :
    Host.gather Cert.ReferenceIdeal.gather_S8192x128_S262144x1_S262144x128_1_0_n_n_0_1_1128 x idx (ix2 e c)
      = x (ix2 (clampNode (idx (ix2 e (0 : Fin 1)))) c) := by
  unfold Host.gather
  congr 1
  funext a
  refine Fin.ext ?_
  match a with
  | ⟨0, _⟩ =>
    show Cert.ReferenceIdeal.gather_S8192x128_S262144x1_S262144x128_1_0_n_n_0_1_1128.start (ix2 e c) idx 0
        + Cert.ReferenceIdeal.gather_S8192x128_S262144x1_S262144x128_1_0_n_n_0_1_1128.batchCoord (ix2 e c) 0
        + Cert.ReferenceIdeal.gather_S8192x128_S262144x1_S262144x128_1_0_n_n_0_1_1128.offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S8192x128_S262144x1_S262144x128_1_0_n_n_0_1_1128.startIndexMap from
      List.mem_singleton.mpr rfl)]
    have hsi : Cert.ReferenceIdeal.gather_S8192x128_S262144x1_S262144x128_1_0_n_n_0_1_1128.siIdx (ix2 e c)
        ⟨List.idxOf (0 : Fin 2) Cert.ReferenceIdeal.gather_S8192x128_S262144x1_S262144x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show Cert.ReferenceIdeal.gather_S8192x128_S262144x1_S262144x128_1_0_n_n_0_1_1128.start (ix2 e c) idx 1
        + Cert.ReferenceIdeal.gather_S8192x128_S262144x1_S262144x128_1_0_n_n_0_1_1128.batchCoord (ix2 e c) 1
        + Cert.ReferenceIdeal.gather_S8192x128_S262144x1_S262144x128_1_0_n_n_0_1_1128.offCoord (ix2 e c) 1 = c.val
    rw [GatherDims.batchCoord_eq_zero _ _ _ List.not_mem_nil]
    unfold GatherDims.start
    rw [dif_neg (by decide)]
    simp only [Nat.add_zero, Nat.zero_add]
    rfl

/-! ## Layout operations at an index -/

/-- An a×1 column cast to a vector of length a reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A 1×n row transposed to an n×1 column reads, at (k, 0), the row at (0, k). -/
theorem transpose_1n_n1_apply {n : ℕ} (x : (⟨2, ![1, n]⟩ : Shape).Idx → α)
    (h : (⟨2, ![1, n]⟩ : Shape).Transposes [1, 0] ⟨2, ![n, 1]⟩) (k : Fin n) (u : Fin 1) :
    transpose ⟨2, ![n, 1]⟩ [1, 0] x h (ix2 k u) = x (ix2 (0 : Fin 1) k) :=
  transpose_apply _ x h _ _ (fun b => by
    match b with
    | ⟨0, _⟩ => rfl
    | ⟨1, _⟩ =>
      show (0 : ℕ) = u.val
      have := u.isLt
      omega)

/-- A vector of length n as an n×1 index table reads, at (e, 0), the vector at e. -/
theorem broadcastInDim_n_n1_apply {n : ℕ} (x : (⟨1, ![n]⟩ : Shape).Idx → α)
    (h : (⟨1, ![n]⟩ : Shape).BroadcastsInDim ⟨2, ![n, 1]⟩ ![0]) (e : Fin n) (u : Fin 1) :
    broadcastInDim ⟨2, ![n, 1]⟩ ![0] h x (ix2 e u) = x (ix1 e) :=
  broadcastInDim_apply _ h x _ _ (fun a => by
    obtain rfl : a = 0 := Subsingleton.elim _ _
    show e.val = if n = 1 then 0 else e.val
    split
    · have := e.isLt; omega
    · rfl)

/-! ## The three-piece concatenation along the columns -/

section Cat3

variable (x₁ x₂ : (⟨2, ![262144, 128]⟩ : Shape).Idx → α) (x₃ : (⟨2, ![262144, 64]⟩ : Shape).Idx → α)
  (h : Shape.Concatenates
    (([⟨⟨2, ![262144, 128]⟩, x₁⟩, ⟨⟨2, ![262144, 128]⟩, x₂⟩, ⟨⟨2, ![262144, 64]⟩, x₃⟩] :
      List ((s : Shape) × (s.Idx → α))).map (·.1)) ⟨2, ![262144, 320]⟩ 1)

/-- Columns 0 … 127 of the concatenation are the first piece. -/
theorem cat3_apply_first (e : Fin 262144) (k : Fin 128) (k' : Fin 320) (hk : k'.val = k.val) :
    concatenate ⟨2, ![262144, 320]⟩ 1 [⟨⟨2, ![262144, 128]⟩, x₁⟩, ⟨⟨2, ![262144, 128]⟩, x₂⟩, ⟨⟨2, ![262144, 64]⟩, x₃⟩] h
      (ix2 e k') = x₁ (ix2 e k) :=
  concatenate_apply_piece (1 : Fin 2) _ h (ix2 e k') 0 (by show 0 < 3; omega) ⟨2, ![262144, 128]⟩ x₁ rfl rfl 0 rfl (ix2 e k)
    (fun b hb => by
      match b with
      | ⟨0, _⟩ => rfl
      | ⟨1, _⟩ => exact absurd rfl hb)
    (by show 0 + k.val = k'.val; omega)

/-- Columns 128 … 255 of the concatenation are the second piece. -/
theorem cat3_apply_second (e : Fin 262144) (k : Fin 128) (k' : Fin 320) (hk : k'.val = 128 + k.val) :
    concatenate ⟨2, ![262144, 320]⟩ 1 [⟨⟨2, ![262144, 128]⟩, x₁⟩, ⟨⟨2, ![262144, 128]⟩, x₂⟩, ⟨⟨2, ![262144, 64]⟩, x₃⟩] h
      (ix2 e k') = x₂ (ix2 e k) :=
  concatenate_apply_piece (1 : Fin 2) _ h (ix2 e k') 1 (by show 1 < 3; omega) ⟨2, ![262144, 128]⟩ x₂ rfl rfl 128 rfl (ix2 e k)
    (fun b hb => by
      match b with
      | ⟨0, _⟩ => rfl
      | ⟨1, _⟩ => exact absurd rfl hb)
    (by show 128 + k.val = k'.val; omega)

/-- Columns 256 … 319 of the concatenation are the third piece. -/
theorem cat3_apply_third (e : Fin 262144) (k : Fin 64) (k' : Fin 320) (hk : k'.val = 256 + k.val) :
    concatenate ⟨2, ![262144, 320]⟩ 1 [⟨⟨2, ![262144, 128]⟩, x₁⟩, ⟨⟨2, ![262144, 128]⟩, x₂⟩, ⟨⟨2, ![262144, 64]⟩, x₃⟩] h
      (ix2 e k') = x₃ (ix2 e k) :=
  concatenate_apply_piece (1 : Fin 2) _ h (ix2 e k') 2 (by show 2 < 3; omega) ⟨2, ![262144, 64]⟩ x₃ rfl rfl 256 rfl (ix2 e k)
    (fun b hb => by
      match b with
      | ⟨0, _⟩ => rfl
      | ⟨1, _⟩ => exact absurd rfl hb)
    (by show 256 + k.val = k'.val; omega)

end Cat3

end Cert.EdgeIdx

end
-- ==== Proof.LibSumSplit.lean ====
/-
  A 266-term sum, read as its three consecutive stretches: terms 0..127, 128..255 and 256..265.
  This holds in every commutative additive monoid (only associativity of the ordered sum is used).
-/
import Mathlib

namespace Cert.LibSumSplit

open Finset

/-- A sum over `Fin (m + n)` is the sum of its first `m` terms plus the sum of its last `n` terms,
    with the indices written out as natural numbers below the bound. -/
theorem sum_fin_add {M : Type*} [AddCommMonoid M] (m n : ℕ) (f : Fin (m + n) → M) :
    ∑ k : Fin (m + n), f k
      = ∑ k : Fin m, f ⟨k.val, by omega⟩ + ∑ k : Fin n, f ⟨m + k.val, by omega⟩ := by
  rw [Fin.sum_univ_add]
  rfl

/-- A 266-term sum is the sum of its terms 0..127, plus the sum of its terms 128..255, plus the sum
    of its terms 256..265. -/
theorem sum_fin_266 {M : Type*} [AddCommMonoid M] (f : Fin 266 → M) :
    ∑ k : Fin 266, f k
      = (∑ k : Fin 128, f ⟨k.val, by omega⟩ + ∑ k : Fin 128, f ⟨128 + k.val, by omega⟩)
        + ∑ k : Fin 10, f ⟨256 + k.val, by omega⟩ := by
  have h1 := sum_fin_add (M := M) 256 10 f
  have h2 := sum_fin_add (M := M) 128 128 (fun k : Fin (128 + 128) => f ⟨k.val, by omega⟩)
  rw [h1]
  congr 1
-- ==== Proof.EdgeScore.lean ====
/-
  The per-edge attention score of the two programs is the same number.

  For an edge e with source s and destination d (the index words wrapped, then clamped into 0 … 8191):
    * the reference contracts the 320 numbers [h(s,·), h(d,·), ea(e,·)] with the attention vector a(0,·);
    * the kernel program contracts h with a(0, 0…127) and with a(0, 128…255) over all nodes first, picks the entries
      of s and d, and adds the contraction of ea(e,·) with a(0, 256…319).
  A 320-term sum is the sum of its stretches of 128, 128 and 64 terms; the leaky rectifier is applied entry by entry
  on both sides. The scatter into the dense matrix is the same operation on both sides.
-/
import proofs.«110029_j5119601017281_2_alg».proof.Proof.KernTerms
import proofs.«110029_j5119601017281_2_alg».proof.Proof.RefTerms
import proofs.«110029_j5119601017281_2_alg».proof.Proof.EdgeIdx
import proofs.«110029_j5119601017281_2_alg».proof.Proof.Spec
import proofs.«110029_j5119601017281_2_alg».proof.Proof.LibPlainDot
import proofs.«110029_j5119601017281_2_alg».proof.Proof.LibSumSplit
import proofs.«110029_j5119601017281_2_alg».proof.Proof.LibRealValued
import Idealize.ShloMosaic.Lib.IdealHost
import Idealize.ShloMosaic.Lib.ValueLayout

noncomputable section

open scoped BigOperators

namespace Cert.EdgeScore

open Idealize.ShloMosaic Idealize.ShloMosaic.ValueIdx Cert.EdgeIdx Cert.RealValued

/-! ## The leaky rectifier at one entry -/

/-- x where x ≥ 0, slope · x elsewhere (slope the float pattern 0x3E4CCCCD). -/
def leaky1 (x : Ideal .f32) : Ideal .f32 :=
  Scalar.select (FloatOps.cmpf .oge x (Ideal.ofBits .f32 0x00000000#32)) x (Ideal.ofBits .f32 0x3E4CCCCD#32 * x)

theorem leakyK_apply (v : FVec Ideal Cert.KernelIdeal.S262144 .f32) (i : Cert.KernelIdeal.S262144.Idx) :
    Cert.KernelIdeal.KernValue.leakyK v i = leaky1 (v i) := by
  unfold Cert.KernelIdeal.KernValue.leakyK leaky1
  rw [select_apply, cmpf_apply, mulf_apply, broadcastInDim_scalar_apply, broadcastInDim_scalar_apply]
  rfl

theorem leakyRef_apply (s : FVec Ideal Cert.ReferenceIdeal.S262144x1 .f32) (j : Cert.ReferenceIdeal.S262144x1.Idx) :
    Cert.ReferenceIdeal.RefValue.leakyRef s j = leaky1 (s j) := by
  unfold Cert.ReferenceIdeal.RefValue.leakyRef leaky1
  rw [select_apply, cmpf_apply, mulf_apply, broadcastInDim_scalar_apply, broadcastInDim_scalar_apply]
  rfl

/-! ## The contractions at an index -/

/-- h contracted with a stretch of 128 entries of the attention vector, as a vector over the nodes. -/
theorem nodeDot_apply (h : FVec Ideal ⟨2, ![8192, 128]⟩ .f32) (a : FVec Ideal ⟨2, ![1, 320]⟩ .f32) (o : ℕ) (ho : o + 128 ≤ 320)
    (hs : (⟨2, ![1, 320]⟩ : Shape).Slices ![0, o] ⟨2, ![1, 128]⟩) (s : Fin 8192) :
    shapeCast Cert.KernelIdeal.S8192
        (Host.dotGeneral (F := Ideal) Cert.KernelIdeal.dot_S8192x128_S128x1_S8192x1_1_0_0_1_n_n none h
          (transpose Cert.KernelIdeal.S128x1 [1, 0] (extractStridedSlice Cert.KernelIdeal.S1x128 ![0, o] a hs)
            Cert.KernelIdeal.Gen.transposes_S1x128_S128x1_1_0))
        Cert.KernelIdeal.Gen.shapeCasts_S8192x1_S8192 (ix1 s)
      = ∑ k : Fin 128, h (ix2 s k) * a (ix2 (0 : Fin 1) (⟨o + k.val, by omega⟩ : Fin 320)) := by
  refine (shapeCast_a1_a_apply _ _ s).trans ?_
  refine (PlainDot.dotGeneral_apply (M := 8192) (K := 128) (N := 1) none .single h _ s (0 : Fin 1)).trans ?_
  refine Finset.sum_congr rfl fun k _ => ?_
  congr 1
  refine (transpose_1n_n1_apply _ _ k (0 : Fin 1)).trans ?_
  exact slice2_axis1_apply o a hs (0 : Fin 1) k ⟨o + k.val, by omega⟩ rfl

/-- The edge attributes contracted with the last 64 entries of the attention vector, as a vector over the edges. -/
theorem edgeDot_apply (ea : FVec Ideal ⟨2, ![262144, 64]⟩ .f32) (a : FVec Ideal ⟨2, ![1, 320]⟩ .f32) (e : Fin 262144) :
    shapeCast Cert.KernelIdeal.S262144
        (Host.dotGeneral (F := Ideal) Cert.KernelIdeal.dot_S262144x64_S64x1_S262144x1_1_0_0_1_n_n none ea
          (transpose Cert.KernelIdeal.S64x1 [1, 0]
            (extractStridedSlice Cert.KernelIdeal.S1x64 ![0, 256] a Cert.KernelIdeal.Gen.slices_S1x320_S1x64_0_256)
            Cert.KernelIdeal.Gen.transposes_S1x64_S64x1_1_0))
        Cert.KernelIdeal.Gen.shapeCasts_S262144x1_S262144 (ix1 e)
      = ∑ k : Fin 64, ea (ix2 e k) * a (ix2 (0 : Fin 1) (⟨256 + k.val, by omega⟩ : Fin 320)) := by
  refine (shapeCast_a1_a_apply _ _ e).trans ?_
  refine (PlainDot.dotGeneral_apply (M := 262144) (K := 64) (N := 1) none .single ea _ e (0 : Fin 1)).trans ?_
  refine Finset.sum_congr rfl fun k _ => ?_
  congr 1
  refine (transpose_1n_n1_apply _ _ k (0 : Fin 1)).trans ?_
  exact slice2_axis1_apply 256 a _ (0 : Fin 1) k ⟨256 + k.val, by omega⟩ rfl

/-- The kernel program's raw score at edge e, over any two index tables. -/
def rawAt (h : FVec Ideal ⟨2, ![8192, 128]⟩ .f32) (iS iD : IVec ⟨2, ![262144, 1]⟩ 32) (ea : FVec Ideal ⟨2, ![262144, 64]⟩ .f32)
    (a : FVec Ideal ⟨2, ![1, 320]⟩ .f32) (e : Fin 262144) : EReal :=
  (∑ k : Fin 128, h (ix2 (clampNode (iS (ix2 e (0 : Fin 1)))) k) * a (ix2 (0 : Fin 1) (⟨k.val, by omega⟩ : Fin 320))
    + ∑ k : Fin 128, h (ix2 (clampNode (iD (ix2 e (0 : Fin 1)))) k) * a (ix2 (0 : Fin 1) (⟨128 + k.val, by omega⟩ : Fin 320)))
  + ∑ k : Fin 64, ea (ix2 e k) * a (ix2 (0 : Fin 1) (⟨256 + k.val, by omega⟩ : Fin 320))

theorem preK_apply (h : FVec Ideal Cert.KernelIdeal.S8192x128 .f32) (ei : IVec Cert.KernelIdeal.S2x262144 32)
    (ea : FVec Ideal Cert.KernelIdeal.S262144x64 .f32) (a : FVec Ideal Cert.KernelIdeal.S1x320 .f32) (e : Fin 262144) :
    Cert.KernelIdeal.KernValue.preK h ei ea a (ix1 e)
      = rawAt h
          (broadcastInDim Cert.KernelIdeal.S262144x1 ![0] Cert.KernelIdeal.Gen.bcast_S262144_S262144x1_0
            (Cert.KernelIdeal.KernValue.normIdx (Cert.KernelIdeal.KernValue.srcK ei)))
          (broadcastInDim Cert.KernelIdeal.S262144x1 ![0] Cert.KernelIdeal.Gen.bcast_S262144_S262144x1_0
            (Cert.KernelIdeal.KernValue.normIdx (Cert.KernelIdeal.KernValue.dstK ei))) ea a e := by
  unfold Cert.KernelIdeal.KernValue.preK rawAt
  rw [addf_apply, addf_apply]
  refine congrArg₂ (· + ·) (congrArg₂ (· + ·) ?_ ?_) ?_
  · refine (gatherK_apply _ _ e).trans ?_
    refine (nodeDot_apply h a 0 (by omega) _ _).trans ?_
    refine Finset.sum_congr rfl fun k _ => ?_
    congr 2
    refine congrArg (ix2 (0 : Fin 1)) (Fin.ext ?_)
    show 0 + k.val = k.val
    omega
  · refine (gatherK_apply _ _ e).trans ?_
    exact nodeDot_apply h a 128 (by omega) _ _
  · exact edgeDot_apply ea a e

theorem preRef_apply (h : FVec Ideal Cert.ReferenceIdeal.S8192x128 .f32) (ei : IVec Cert.ReferenceIdeal.S2x262144 32)
    (ea : FVec Ideal Cert.ReferenceIdeal.S262144x64 .f32) (a : FVec Ideal Cert.ReferenceIdeal.S1x320 .f32) (e : Fin 262144) :
    Cert.ReferenceIdeal.RefValue.preRef h ei ea a (ix2 e (0 : Fin 1))
      = rawAt h (Cert.ReferenceIdeal.RefValue.colIdx (Cert.ReferenceIdeal.RefValue.srcRef ei))
          (Cert.ReferenceIdeal.RefValue.colIdx (Cert.ReferenceIdeal.RefValue.dstRef ei)) ea a e := by
  unfold Cert.ReferenceIdeal.RefValue.preRef rawAt
  refine (PlainDot.dotGeneral_apply (M := 262144) (K := 320) (N := 1) none .single _ _ e (0 : Fin 1)).trans ?_
  have hT : ∀ k : Fin 320, transpose Cert.ReferenceIdeal.S320x1 [1, 0] a Cert.ReferenceIdeal.Gen.transposes_S1x320_S320x1_1_0
      (ix2 k (0 : Fin 1)) = a (ix2 (0 : Fin 1) k) := fun k => transpose_1n_n1_apply a _ k (0 : Fin 1)
  simp only [hT]
  have h1 := Cert.LibSumSplit.sum_fin_add 256 64
    (fun k : Fin (256 + 64) => Cert.ReferenceIdeal.RefValue.catRef h ei ea (ix2 e k) * a (ix2 (0 : Fin 1) k))
  have h2 := Cert.LibSumSplit.sum_fin_add 128 128
    (fun k : Fin (128 + 128) => Cert.ReferenceIdeal.RefValue.catRef h ei ea (ix2 e (⟨k.val, by omega⟩ : Fin 320))
      * a (ix2 (0 : Fin 1) (⟨k.val, by omega⟩ : Fin 320)))
  refine h1.trans ?_
  refine congrArg₂ (· + ·) (h2.trans (congrArg₂ (· + ·) ?_ ?_)) ?_
  · refine Finset.sum_congr rfl fun k _ => ?_
    refine congrArg (· * _) ?_
    unfold Cert.ReferenceIdeal.RefValue.catRef
    refine (cat3_apply_first _ _ _ _ e k _ rfl).trans ?_
    exact gatherR_apply _ _ e k
  · refine Finset.sum_congr rfl fun k _ => ?_
    refine congrArg (· * _) ?_
    unfold Cert.ReferenceIdeal.RefValue.catRef
    refine (cat3_apply_second _ _ _ _ e k _ rfl).trans ?_
    exact gatherR_apply _ _ e k
  · refine Finset.sum_congr rfl fun k _ => ?_
    refine congrArg (· * _) ?_
    unfold Cert.ReferenceIdeal.RefValue.catRef
    exact cat3_apply_third _ _ _ _ e k _ rfl

/-- The two programs build the same index tables out of the edge array. -/
theorem colS_eq (ei : IVec Cert.KernelIdeal.S2x262144 32) :
    broadcastInDim Cert.KernelIdeal.S262144x1 ![0] Cert.KernelIdeal.Gen.bcast_S262144_S262144x1_0
        (Cert.KernelIdeal.KernValue.normIdx (Cert.KernelIdeal.KernValue.srcK ei))
      = Cert.ReferenceIdeal.RefValue.colIdx (Cert.ReferenceIdeal.RefValue.srcRef ei) := rfl

theorem colD_eq (ei : IVec Cert.KernelIdeal.S2x262144 32) :
    broadcastInDim Cert.KernelIdeal.S262144x1 ![0] Cert.KernelIdeal.Gen.bcast_S262144_S262144x1_0
        (Cert.KernelIdeal.KernValue.normIdx (Cert.KernelIdeal.KernValue.dstK ei))
      = Cert.ReferenceIdeal.RefValue.colIdx (Cert.ReferenceIdeal.RefValue.dstRef ei) := rfl

/-! ## The score -/

/-- The kernel program's edge scores are the reference's. -/
theorem scoreK_eq_scoreRef (h : FVec Ideal Cert.KernelIdeal.S8192x128 .f32) (ei : IVec Cert.KernelIdeal.S2x262144 32)
    (ea : FVec Ideal Cert.KernelIdeal.S262144x64 .f32) (a : FVec Ideal Cert.KernelIdeal.S1x320 .f32) :
    Cert.KernelIdeal.KernValue.scoreK h ei ea a = Cert.ReferenceIdeal.RefValue.scoreRef h ei ea a := by
  funext i
  obtain ⟨e, rfl⟩ : ∃ e : Fin 262144, i = ix1 e := ⟨i 0, eq_ix1 i⟩
  unfold Cert.KernelIdeal.KernValue.scoreK Cert.ReferenceIdeal.RefValue.scoreRef
  rw [leakyK_apply, preK_apply, colS_eq, colD_eq]
  refine Eq.symm ((shapeCast_a1_a_apply _ _ e).trans ?_)
  rw [leakyRef_apply, preRef_apply]

/-! ## The scores are real numbers -/

theorem isReal_slope : IsReal (Ideal.ofBits .f32 0x3E4CCCCD#32) := by
  show IsReal (Ideal.ieee 8 23 (0x3E4CCCCD#32 : BitVec 32))
  unfold Ideal.ieee
  dsimp only
  rw [if_neg (by decide), if_neg (by decide)]
  exact ⟨_, rfl⟩

theorem isReal_leaky1 {x : EReal} (hx : IsReal x) : IsReal (leaky1 x) := by
  unfold leaky1 Scalar.select
  split
  · exact hx
  · exact isReal_slope.mul hx

/-- With real-valued inputs every edge score of the kernel program is a real number. -/
theorem isReal_scoreK (h : FVec Ideal Cert.KernelIdeal.S8192x128 .f32) (ei : IVec Cert.KernelIdeal.S2x262144 32)
    (ea : FVec Ideal Cert.KernelIdeal.S262144x64 .f32) (a : FVec Ideal Cert.KernelIdeal.S1x320 .f32)
    (hh : ∀ i, IsReal (h i)) (hea : ∀ i, IsReal (ea i)) (ha : ∀ i, IsReal (a i)) :
    ∀ j, IsReal (Cert.KernelIdeal.KernValue.scoreK h ei ea a j) := by
  intro j
  obtain ⟨e, rfl⟩ : ∃ e : Fin 262144, j = ix1 e := ⟨j 0, eq_ix1 j⟩
  unfold Cert.KernelIdeal.KernValue.scoreK
  rw [leakyK_apply, preK_apply]
  refine isReal_leaky1 ?_
  unfold rawAt
  exact ((IsReal.sum _ _ fun k _ => (hh _).mul (ha _)).add (IsReal.sum _ _ fun k _ => (hh _).mul (ha _))).add
    (IsReal.sum _ _ fun k _ => (hea _).mul (ha _))

/-! ## The dense score matrix -/

theorem ofBits_zero_bf16_eq_f32 : Ideal.ofBits .bf16 0x0000#16 = Ideal.ofBits .f32 0x00000000#32 := by
  rw [Ideal.ofBits_zero_bf16, Ideal.ofBits_zero_f32]

/-- The kernel program scatters the scores into the matrix of zeros exactly as the reference does. -/
theorem attK_eq_attRef (e : FVec Ideal Cert.KernelIdeal.S262144 .f32) (ei : IVec Cert.KernelIdeal.S2x262144 32) :
    (Cert.KernelIdeal.KernValue.attK e ei : Cert.Gat.SNN.Idx → EReal) = Cert.ReferenceIdeal.RefValue.attRef e ei := by
  unfold Cert.KernelIdeal.KernValue.attK Cert.ReferenceIdeal.RefValue.attRef
  have hz : (broadcastInDim Cert.KernelIdeal.S8192x8192 ![] Cert.KernelIdeal.Gen.bcast_S_S8192x8192
        (constant (F := Ideal) Cert.KernelIdeal.S_ .bf16 0x0000#16) : Cert.Gat.SNN.Idx → EReal)
      = broadcastInDim Cert.ReferenceIdeal.S8192x8192 ![] Cert.ReferenceIdeal.Gen.bcast_S_S8192x8192
        (constant (F := Ideal) Cert.ReferenceIdeal.S_ .f32 0x00000000#32) := by
    funext j
    rw [broadcastInDim_scalar_apply, broadcastInDim_scalar_apply, constant_apply, constant_apply]
    exact ofBits_zero_bf16_eq_f32
  exact congrArg (fun z : Cert.Gat.SNN.Idx → EReal =>
    Host.scatter Cert.ReferenceIdeal.scatter_S8192x8192_S262144x2_S262144_n_01_01_1 (fun _ b => b) z
      (Cert.ReferenceIdeal.RefValue.pairIdx ei) e) hz

end Cert.EdgeScore

end
-- ==== Proof.Bridge.lean ====
/-
  The two programs compute one function.

  Both project the node features to h = x·Wᵀ, score every edge from the two endpoint rows of h and the edge's
  features, write the scores into a dense matrix of zeros, and aggregate the rows of h with the row softmax of that
  matrix. They differ in the arrangement of two sums: the edge score's 320-term contraction is split into three
  partial contractions, and the softmax division is taken once after the weighted sum instead of once per weight.
  The first holds for all extended reals; the second needs every entry to be a real number, which the finiteness of
  the inputs gives.
-/
import proofs.«110029_j5119601017281_2_alg».proof.Proof.KernOutDef
import proofs.«110029_j5119601017281_2_alg».proof.Proof.RefTerms
import proofs.«110029_j5119601017281_2_alg».proof.Proof.AggLaw
import proofs.«110029_j5119601017281_2_alg».proof.Proof.LibScatterAll
import proofs.«110029_j5119601017281_2_alg».proof.Proof.LibRealValued
import proofs.«110029_j5119601017281_2_alg».proof.Proof.RefBridge
import proofs.«110029_j5119601017281_2_alg».proof.Proof.EdgeScore

noncomputable section

namespace Cert.Bridge

open Idealize.ShloMosaic Cert.RealValued
open Cert.KernelIdeal.KernValue Cert.KernelIdeal.KernOut Cert.ReferenceIdeal.RefValue

/-- The float pattern of zero at the 16-bit format is the real number 0. -/
theorem ofBits_zero_bf16 : Ideal.ofBits .bf16 0x0000#16 = 0 := by simp [Ideal.ofBits, Ideal.ieee]

/-- The dense attention matrix holds zeros and edge scores only: when every score is a real number, so is every entry. -/
theorem isReal_attK (e : FVec Ideal Cert.KernelIdeal.S262144 .f32) (ei : IVec Cert.KernelIdeal.S2x262144 32)
    (he : ∀ j, IsReal (e j)) : ∀ i, IsReal ((attK e ei : Cert.Gat.SNN.Idx → EReal) i) := by
  unfold attK
  refine Cert.LibScatterAll.scatter_set_all IsReal _ _ _ _ (fun i => ?_) (fun j => ?_)
  · refine ⟨0, ?_⟩
    show Ideal.ofBits .bf16 0x0000#16 = ((0 : ℝ) : EReal)
    rw [ofBits_zero_bf16]; rfl
  · exact he j

/-- The two programs compute one function of real-valued arguments. The projections agree as sums; the edge scores
    and the attention matrices agree entry by entry; with every entry real, dividing the weighted sum once by the
    softmax denominator is the same as normalising the weights first. -/
theorem out_eq (x : FVec Ideal Cert.KernelIdeal.S8192x128 .f32) (ei : IVec Cert.KernelIdeal.S2x262144 32)
    (ea : FVec Ideal Cert.KernelIdeal.S262144x64 .f32) (W : FVec Ideal Cert.KernelIdeal.S128x128 .f32)
    (a : FVec Ideal Cert.KernelIdeal.S1x320 .f32)
    (hx : ∀ i, IsReal (x i)) (hea : ∀ i, IsReal (ea i)) (hW : ∀ i, IsReal (W i)) (ha : ∀ i, IsReal (a i)) :
    outRef x ei ea W a = outK x ei ea W a := by
  have hh : ∀ i, IsReal (Cert.Gat.proj x W i) := Cert.Gat.isReal_proj x W hx hW
  unfold outRef outK
  rw [Cert.ReferenceIdeal.RefBridge.hRef_eq, hK_eq_proj, Cert.ReferenceIdeal.RefBridge.softAggRef_eq,
    ← Cert.EdgeScore.scoreK_eq_scoreRef, ← Cert.EdgeScore.attK_eq_attRef]
  exact (Cert.Gat.aggDivAfter_eq_aggDivBefore _ _
    (isReal_attK _ _ (Cert.EdgeScore.isReal_scoreK _ _ _ _ hh hea ha)) hh).symm

end Cert.Bridge

end
-- ==== Proof.Finite.lean ====
/-
  The precondition read back: when the finiteness predicate holds of the five arguments, every entry of the four
  float arrays — node features, edge features, the projection weight, the attention vector — is a real number.
  The predicate is the conjunction, over the four arrays, of "every |entry| is below +∞"; an extended real whose
  absolute value max(x, −x) is below +∞ is neither infinity.
-/
import proofs.«110029_j5119601017281_2_alg».proof.Pre_finite_inputs
import proofs.«110029_j5119601017281_2_alg».proof.Proof.Gen.Pre_finite_inputs
import proofs.«110029_j5119601017281_2_alg».proof.Proof.LibRealValued
import Idealize.ShloMosaic.Lib.ReduceAll
import Idealize.ShloMosaic.Lib.ValueIdx

noncomputable section

namespace Cert.Finite

open Idealize.ShloMosaic Cert.RealValued Cert.Pre_finite_inputs

instance : Subsingleton S_.Idx := ⟨fun a b => funext fun d => d.elim0⟩

/-- The float pattern 0x7F800000 is +∞. -/
theorem ofBits_inf : Ideal.ofBits .f32 0x7F800000#32 = (⊤ : EReal) := by
  simp [Ideal.ofBits, Ideal.ieee]

/-- An extended real whose absolute value is below +∞ is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- Under the precondition every entry of the four float arguments is a real number. -/
theorem all_real (x : FVec Ideal S8192x128 .f32) (ei : IVec S2x262144 32) (ea : FVec Ideal S262144x64 .f32)
    (W : FVec Ideal S128x128 .f32) (a : FVec Ideal S1x320 .f32)
    (h : fn (F := Ideal) x ei ea W a = fun _ => 1#1) :
    (∀ i, IsReal (x i)) ∧ (∀ i, IsReal (ea i)) ∧ (∀ i, IsReal (W i)) ∧ (∀ i, IsReal (a i)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact isReal_of_abs_lt_inf _ (Host.reduce_andi_all _ _ _ _ _ h1 i)
  · exact isReal_of_abs_lt_inf _ (Host.reduce_andi_all _ _ _ _ _ h2 i)
  · exact isReal_of_abs_lt_inf _ (Host.reduce_andi_all _ _ _ _ _ h3 i)
  · exact isReal_of_abs_lt_inf _ (Host.reduce_andi_all _ _ _ _ _ h4 i)

end Cert.Finite

end
-- ==== Proof.lean ====
/-
  The certificate's five claims for the graph-attention layer.

  The three frames: each program terminates without a fault and leaves its arguments as launched — the two kernel
  programs by their generated frame proofs, the reference by its run with the result dropped. The idealization
  rewrote nothing, so there is nothing to preserve. The value claim: from memories that agree on the arguments, the
  idealized kernel program ends with its result at a function of the arguments (the projection, the edge scores
  written into a dense matrix, the row softmax applied after the weighted sum), the reference ends at its own
  function of them (the softmax weights normalised first), and under finite inputs the two functions agree.
-/
import proofs.«110029_j5119601017281_2_alg».proof.Defs
import proofs.«110029_j5119601017281_2_alg».proof.Proof.Gen.Kernel
import proofs.«110029_j5119601017281_2_alg».proof.Proof.Gen.Kernel.Frame
import proofs.«110029_j5119601017281_2_alg».proof.Proof.Gen.KernelIdeal
import proofs.«110029_j5119601017281_2_alg».proof.Proof.Gen.KernelIdeal.Frame
import proofs.«110029_j5119601017281_2_alg».proof.Proof.Gen.ReferenceIdeal
import proofs.«110029_j5119601017281_2_alg».proof.Proof.Gen.Pre_finite_inputs
import proofs.«110029_j5119601017281_2_alg».proof.Proof.KernOut
import proofs.«110029_j5119601017281_2_alg».proof.Proof.RefRun
import proofs.«110029_j5119601017281_2_alg».proof.Proof.Bridge
import proofs.«110029_j5119601017281_2_alg».proof.Proof.Finite
import Idealize.ShloMosaic.Adequacy
import Idealize.ShloMosaic.Init

noncomputable section

namespace Cert.Proof

open Idealize.ShloMosaic Idealize.SL.Sem

/-- The kernel program as printed terminates, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both idealized programs end with the same result: the kernel program's
    function of the arguments, which under finite inputs is the reference's. -/
theorem algebraic : Cert.algebraic_KernelIdeal_ReferenceIdeal := by
  intro m ρ m' ρ' hpre hagree
  refine ⟨_, Cert.KernelIdeal.KernOut.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  obtain ⟨hx, hea, hW, ha⟩ := Cert.Finite.all_real _ _ _ _ _ (hpre c)
  exact Cert.Bridge.out_eq _ _ _ _ _ hx hea hW ha

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
